-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S6144x2048 : Shape := ⟨2, ![6144, 2048]⟩
abbrev S6144 : Shape := ⟨1, ![6144]⟩
abbrev S6144x6144 : Shape := ⟨2, ![6144, 6144]⟩
abbrev S2016x6144 : Shape := ⟨2, ![2016, 6144]⟩
abbrev S2016 : Shape := ⟨1, ![2016]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S6144x6144 : S_.BroadcastsInDim S6144x6144 (![] : Fin 0 → Fin S6144x6144.rank)
  reducesTo_S6144x6144_S_d0_1 : S6144x6144.ReducesTo [0, 1] S_
  bcast_S_S2016x6144 : S_.BroadcastsInDim S2016x6144 (![] : Fin 0 → Fin S2016x6144.rank)
  reducesTo_S2016x6144_S_d0_1 : S2016x6144.ReducesTo [0, 1] S_
  bcast_S_S2016 : S_.BroadcastsInDim S2016 (![] : Fin 0 → Fin S2016.rank)
  reducesTo_S2016_S_d0 : S2016.ReducesTo [0] S_

variable [Facts]

def fn_part4 {F : FTy → Type} [FloatOps F] (main_arg14 : FVec F S6144x6144 .f32) (main_arg15 : FVec F S2016x6144 .f32) (main_v63 : IVec S_ 1) (main_v67 : IVec S_ 1) : IVec S_ 1 :=
  let main_v68 : IVec S_ 1 := andi main_v63 main_v67
  let main_v69 : FVec F S6144x6144 .f32 := Host.absf main_arg14
  let main_cst_26 : FVec F S_ .f32 := constant S_ .f32 0x7F800000#32
  let main_v70 : FVec F S6144x6144 .f32 := broadcastInDim S6144x6144 ![] bcast_S_S6144x6144 main_cst_26
  let main_v71 : IVec S6144x6144 1 := cmpf .olt main_v69 main_v70
  let main_c_27 : IVec S_ 1 := constantI S_ 1 1#1
  let main_v72 : IVec S_ 1 := (fun x v => Host.reduce IntOp.andi x v reducesTo_S6144x6144_S_d0_1 h_S_) main_v71 main_c_27
  let main_v73 : IVec S_ 1 := andi main_v68 main_v72
  let main_v74 : FVec F S2016x6144 .f32 := Host.absf main_arg15
  let main_cst_28 : FVec F S_ .f32 := constant S_ .f32 0x7F800000#32
  let main_v75 : FVec F S2016x6144 .f32 := broadcastInDim S2016x6144 ![] bcast_S_S2016x6144 main_cst_28
  let main_v76 : IVec S2016x6144 1 := cmpf .olt main_v74 main_v75
  let main_c_29 : IVec S_ 1 := constantI S_ 1 1#1
  let main_v77 : IVec S_ 1 := (fun x v => Host.reduce IntOp.andi x v reducesTo_S2016x6144_S_d0_1 h_S_) main_v76 main_c_29
  let main_v78 : IVec S_ 1 := andi main_v73 main_v77
  main_v78

def fn_part3 {F : FTy → Type} [FloatOps F] (main_arg11 : FVec F S6144x2048 .f32) (main_arg12 : FVec F S6144x6144 .f32) (main_arg13 : FVec F S6144x6144 .f32) (main_arg14 : FVec F S6144x6144 .f32) (main_arg15 : FVec F S2016x6144 .f32) (main_v48 : IVec S_ 1) (main_v49 : FVec F S2016 .f32) (main_v50 : FVec F S2016 .f32) : IVec S_ 1 :=
  let main_v51 : IVec S2016 1 := cmpf .olt main_v49 main_v50
  let main_c_19 : IVec S_ 1 := constantI S_ 1 1#1
  let main_v52 : IVec S_ 1 := (fun x v => Host.reduce IntOp.andi x v reducesTo_S2016_S_d0 h_S_) main_v51 main_c_19
  let main_v53 : IVec S_ 1 := andi main_v48 main_v52
  let main_v54 : FVec F S6144x2048 .f32 := Host.absf main_arg11
  let main_cst_20 : FVec F S_ .f32 := constant S_ .f32 0x7F800000#32
  let main_v55 : FVec F S6144x2048 .f32 := broadcastInDim S6144x2048 ![] bcast_S_S6144x2048 main_cst_20
  let main_v56 : IVec S6144x2048 1 := cmpf .olt main_v54 main_v55
  let main_c_21 : IVec S_ 1 := constantI S_ 1 1#1
  let main_v57 : IVec S_ 1 := (fun x v => Host.reduce IntOp.andi x v reducesTo_S6144x2048_S_d0_1 h_S_) main_v56 main_c_21
  let main_v58 : IVec S_ 1 := andi main_v53 main_v57
  let main_v59 : FVec F S6144x6144 .f32 := Host.absf main_arg12
  let main_cst_22 : FVec F S_ .f32 := constant S_ .f32 0x7F800000#32
  let main_v60 : FVec F S6144x6144 .f32 := broadcastInDim S6144x6144 ![] bcast_S_S6144x6144 main_cst_22
  let main_v61 : IVec S6144x6144 1 := cmpf .olt main_v59 main_v60
  let main_c_23 : IVec S_ 1 := constantI S_ 1 1#1
  let main_v62 : IVec S_ 1 := (fun x v => Host.reduce IntOp.andi x v reducesTo_S6144x6144_S_d0_1 h_S_) main_v61 main_c_23
  let main_v63 : IVec S_ 1 := andi main_v58 main_v62
  let main_v64 : FVec F S6144x6144 .f32 := Host.absf main_arg13
  let main_cst_24 : FVec F S_ .f32 := constant S_ .f32 0x7F800000#32
  let main_v65 : FVec F S6144x6144 .f32 := broadcastInDim S6144x6144 ![] bcast_S_S6144x6144 main_cst_24
  let main_v66 : IVec S6144x6144 1 := cmpf .olt main_v64 main_v65
  let main_c_25 : IVec S_ 1 := constantI S_ 1 1#1
  let main_v67 : IVec S_ 1 := (fun x v => Host.reduce IntOp.andi x v reducesTo_S6144x6144_S_d0_1 h_S_) main_v66 main_c_25
  fn_part4 (F := F) main_arg14 main_arg15 main_v63 main_v67

def fn_part2 {F : FTy → Type} [FloatOps F] (main_arg7 : FVec F S6144x6144 .f32) (main_arg8 : FVec F S6144 .f32) (main_arg9 : FVec F S2016x6144 .f32) (main_arg10 : FVec F S2016 .f32) (main_arg11 : FVec F S6144x2048 .f32) (main_arg12 : FVec F S6144x6144 .f32) (main_arg13 : FVec F S6144x6144 .f32) (main_arg14 : FVec F S6144x6144 .f32) (main_arg15 : FVec F S2016x6144 .f32) (main_v33 : IVec S_ 1) : IVec S_ 1 :=
  let main_v34 : FVec F S6144x6144 .f32 := Host.absf main_arg7
  let main_cst_12 : FVec F S_ .f32 := constant S_ .f32 0x7F800000#32
  let main_v35 : FVec F S6144x6144 .f32 := broadcastInDim S6144x6144 ![] bcast_S_S6144x6144 main_cst_12
  let main_v36 : IVec S6144x6144 1 := cmpf .olt main_v34 main_v35
  let main_c_13 : IVec S_ 1 := constantI S_ 1 1#1
  let main_v37 : IVec S_ 1 := (fun x v => Host.reduce IntOp.andi x v reducesTo_S6144x6144_S_d0_1 h_S_) main_v36 main_c_13
  let main_v38 : IVec S_ 1 := andi main_v33 main_v37
  let main_v39 : FVec F S6144 .f32 := Host.absf main_arg8
  let main_cst_14 : FVec F S_ .f32 := constant S_ .f32 0x7F800000#32
  let main_v40 : FVec F S6144 .f32 := broadcastInDim S6144 ![] bcast_S_S6144 main_cst_14
  let main_v41 : IVec S6144 1 := cmpf .olt main_v39 main_v40
  let main_c_15 : IVec S_ 1 := constantI S_ 1 1#1
  let main_v42 : IVec S_ 1 := (fun x v => Host.reduce IntOp.andi x v reducesTo_S6144_S_d0 h_S_) main_v41 main_c_15
  let main_v43 : IVec S_ 1 := andi main_v38 main_v42
  let main_v44 : FVec F S2016x6144 .f32 := Host.absf main_arg9
  let main_cst_16 : FVec F S_ .f32 := constant S_ .f32 0x7F800000#32
  let main_v45 : FVec F S2016x6144 .f32 := broadcastInDim S2016x6144 ![] bcast_S_S2016x6144 main_cst_16
  let main_v46 : IVec S2016x6144 1 := cmpf .olt main_v44 main_v45
  let main_c_17 : IVec S_ 1 := constantI S_ 1 1#1
  let main_v47 : IVec S_ 1 := (fun x v => Host.reduce IntOp.andi x v reducesTo_S2016x6144_S_d0_1 h_S_) main_v46 main_c_17
  let main_v48 : IVec S_ 1 := andi main_v43 main_v47
  let main_v49 : FVec F S2016 .f32 := Host.absf main_arg10
  let main_cst_18 : FVec F S_ .f32 := constant S_ .f32 0x7F800000#32
  let main_v50 : FVec F S2016 .f32 := broadcastInDim S2016 ![] bcast_S_S2016 main_cst_18
  fn_part3 (F := F) main_arg11 main_arg12 main_arg13 main_arg14 main_arg15 main_v48 main_v49 main_v50

def fn_part1 {F : FTy → Type} [FloatOps F] (main_arg4 : FVec F S6144 .f32) (main_arg5 : FVec F S6144x6144 .f32) (main_arg6 : FVec F S6144 .f32) (main_arg7 : FVec F S6144x6144 .f32) (main_arg8 : FVec F S6144 .f32) (main_arg9 : FVec F S2016x6144 .f32) (main_arg10 : FVec F S2016 .f32) (main_arg11 : FVec F S6144x2048 .f32) (main_arg12 : FVec F S6144x6144 .f32) (main_arg13 : FVec F S6144x6144 .f32) (main_arg14 : FVec F S6144x6144 .f32) (main_arg15 : FVec F S2016x6144 .f32) (main_v13 : IVec S_ 1) (main_v16 : IVec S6144x6144 1) : IVec S_ 1 :=
  let main_c_5 : IVec S_ 1 := constantI S_ 1 1#1
  let main_v17 : IVec S_ 1 := (fun x v => Host.reduce IntOp.andi x v reducesTo_S6144x6144_S_d0_1 h_S_) main_v16 main_c_5
  let main_v18 : IVec S_ 1 := andi main_v13 main_v17
  let main_v19 : FVec F S6144 .f32 := Host.absf main_arg4
  let main_cst_6 : FVec F S_ .f32 := constant S_ .f32 0x7F800000#32
  let main_v20 : FVec F S6144 .f32 := broadcastInDim S6144 ![] bcast_S_S6144 main_cst_6
  let main_v21 : IVec S6144 1 := cmpf .olt main_v19 main_v20
  let main_c_7 : IVec S_ 1 := constantI S_ 1 1#1
  let main_v22 : IVec S_ 1 := (fun x v => Host.reduce IntOp.andi x v reducesTo_S6144_S_d0 h_S_) main_v21 main_c_7
  let main_v23 : IVec S_ 1 := andi main_v18 main_v22
  let main_v24 : FVec F S6144x6144 .f32 := Host.absf main_arg5
  let main_cst_8 : FVec F S_ .f32 := constant S_ .f32 0x7F800000#32
  let main_v25 : FVec F S6144x6144 .f32 := broadcastInDim S6144x6144 ![] bcast_S_S6144x6144 main_cst_8
  let main_v26 : IVec S6144x6144 1 := cmpf .olt main_v24 main_v25
  let main_c_9 : IVec S_ 1 := constantI S_ 1 1#1
  let main_v27 : IVec S_ 1 := (fun x v => Host.reduce IntOp.andi x v reducesTo_S6144x6144_S_d0_1 h_S_) main_v26 main_c_9
  let main_v28 : IVec S_ 1 := andi main_v23 main_v27
  let main_v29 : FVec F S6144 .f32 := Host.absf main_arg6
  let main_cst_10 : FVec F S_ .f32 := constant S_ .f32 0x7F800000#32
  let main_v30 : FVec F S6144 .f32 := broadcastInDim S6144 ![] bcast_S_S6144 main_cst_10
  let main_v31 : IVec S6144 1 := cmpf .olt main_v29 main_v30
  let main_c_11 : IVec S_ 1 := constantI S_ 1 1#1
  let main_v32 : IVec S_ 1 := (fun x v => Host.reduce IntOp.andi x v reducesTo_S6144_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4096x2048 .f32) (main_arg1 : FVec F S6144x2048 .f32) (main_arg2 : FVec F S6144 .f32) (main_arg3 : FVec F S6144x6144 .f32) (main_arg4 : FVec F S6144 .f32) (main_arg5 : FVec F S6144x6144 .f32) (main_arg6 : FVec F S6144 .f32) (main_arg7 : FVec F S6144x6144 .f32) (main_arg8 : FVec F S6144 .f32) (main_arg9 : FVec F S2016x6144 .f32) (main_arg10 : FVec F S2016 .f32) (main_arg11 : FVec F S6144x2048 .f32) (main_arg12 : FVec F S6144x6144 .f32) (main_arg13 : FVec F S6144x6144 .f32) (main_arg14 : FVec F S6144x6144 .f32) (main_arg15 : FVec F S2016x6144 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S6144x2048 .f32 := Host.absf main_arg1
  let main_cst_0 : FVec F S_ .f32 := constant S_ .f32 0x7F800000#32
  let main_v5 : FVec F S6144x2048 .f32 := broadcastInDim S6144x2048 ![] bcast_S_S6144x2048 main_cst_0
  let main_v6 : IVec S6144x2048 1 := cmpf .olt main_v4 main_v5
  let main_c_1 : IVec S_ 1 := constantI S_ 1 1#1
  let main_v7 : IVec S_ 1 := (fun x v => Host.reduce IntOp.andi x v reducesTo_S6144x2048_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  let main_v14 : FVec F S6144x6144 .f32 := Host.absf main_arg3
  let main_cst_4 : FVec F S_ .f32 := constant S_ .f32 0x7F800000#32
  let main_v15 : FVec F S6144x6144 .f32 := broadcastInDim S6144x6144 ![] bcast_S_S6144x6144 main_cst_4
  let main_v16 : IVec S6144x6144 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4096x2048 : Shape := ⟨2, ![4096, 2048]⟩
abbrev S6144x2048 : Shape := ⟨2, ![6144, 2048]⟩
abbrev S6144 : Shape := ⟨1, ![6144]⟩
abbrev S6144x6144 : Shape := ⟨2, ![6144, 6144]⟩
abbrev S2016x6144 : Shape := ⟨2, ![2016, 6144]⟩
abbrev S2016 : Shape := ⟨1, ![2016]⟩
abbrev S_ : Shape := ⟨0, ![]⟩
abbrev S2048x6144 : Shape := ⟨2, ![2048, 6144]⟩
abbrev S2048 : Shape := ⟨1, ![2048]⟩
abbrev S1x6144 : Shape := ⟨2, ![1, 6144]⟩
abbrev S4096x6144 : Shape := ⟨2, ![4096, 6144]⟩
abbrev S256x2048 : Shape := ⟨2, ![256, 2048]⟩
abbrev S1024x2048 : Shape := ⟨2, ![1024, 2048]⟩
abbrev S1x1024 : Shape := ⟨2, ![1, 1024]⟩
abbrev S256x1024 : Shape := ⟨2, ![256, 1024]⟩
abbrev S256x6144 : Shape := ⟨2, ![256, 6144]⟩
abbrev S1024x6144 : Shape := ⟨2, ![1024, 6144]⟩
abbrev S1x2048 : Shape := ⟨2, ![1, 2048]⟩
abbrev S4096x2016 : Shape := ⟨2, ![4096, 2016]⟩

abbrev nBuf : Space → Nat
  | .hbm => 44
  | .vmem => 40
  | .smem => 0
  | _ => 0

abbrev bufTy : (tb : Table) → Fin (tcTables nBuf tb) → BufTy
  | .hbm, ⟨0, _⟩ => ⟨S4096x2048, .f32⟩
  | .hbm, ⟨1, _⟩ => ⟨S6144x2048, .f32⟩
  | .hbm, ⟨2, _⟩ => ⟨S6144, .f32⟩
  | .hbm, ⟨3, _⟩ => ⟨S6144x6144, .f32⟩
  | .hbm, ⟨4, _⟩ => ⟨S6144, .f32⟩
  | .hbm, ⟨5, _⟩ => ⟨S6144x6144, .f32⟩
  | .hbm, ⟨6, _⟩ => ⟨S6144, .f32⟩
  | .hbm, ⟨7, _⟩ => ⟨S6144x6144, .f32⟩
  | .hbm, ⟨8, _⟩ => ⟨S6144, .f32⟩
  | .hbm, ⟨9, _⟩ => ⟨S2016x6144, .f32⟩
  | .hbm, ⟨10, _⟩ => ⟨S2016, .f32⟩
  | .hbm, ⟨11, _⟩ => ⟨S6144x2048, .f32⟩
  | .hbm, ⟨12, _⟩ => ⟨S6144x6144, .f32⟩
  | .hbm, ⟨13, _⟩ => ⟨S6144x6144, .f32⟩
  | .hbm, ⟨14, _⟩ => ⟨S6144x6144, .f32⟩
  | .hbm, ⟨15, _⟩ => ⟨S2016x6144, .f32⟩
  | .hbm, ⟨16, _⟩ => ⟨S6144x2048, .f32⟩
  | .hbm, ⟨17, _⟩ => ⟨S6144x2048, .bf16⟩
  | .hbm, ⟨18, _⟩ => ⟨S6144x6144, .f32⟩
  | .hbm, ⟨19, _⟩ => ⟨S6144x6144, .bf16⟩
  | .hbm, ⟨20, _⟩ => ⟨S6144x6144, .f32⟩
  | .hbm, ⟨21, _⟩ => ⟨S6144x6144, .bf16⟩
  | .hbm, ⟨22, _⟩ => ⟨S6144x6144, .f32⟩
  | .hbm, ⟨23, _⟩ => ⟨S6144x6144, .bf16⟩
  | .hbm, ⟨24, _⟩ => ⟨S2016x6144, .f32⟩
  | .hbm, ⟨25, _⟩ => ⟨S2016x6144, .bf16⟩
  | .hbm, ⟨26, _⟩ => ⟨S_, .i32⟩
  | .hbm, ⟨27, _⟩ => ⟨S_, .bf16⟩
  | .hbm, ⟨28, _⟩ => ⟨S2048x6144, .bf16⟩
  | .hbm, ⟨29, _⟩ => ⟨S_, .i32⟩
  | .hbm, ⟨30, _⟩ => ⟨S_, .f32⟩
  | .hbm, ⟨31, _⟩ => ⟨S2048, .f32⟩
  | .hbm, ⟨32, _⟩ => ⟨S4096x2048, .bf16⟩
  | .hbm, ⟨33, _⟩ => ⟨S1x6144, .f32⟩
  | .hbm, ⟨34, _⟩ => ⟨S4096x6144, .bf16⟩
  | .hbm, ⟨35, _⟩ => ⟨S1x6144, .f32⟩
  | .hbm, ⟨36, _⟩ => ⟨S4096x6144, .bf16⟩
  | .hbm, ⟨37, _⟩ => ⟨S1x6144, .f32⟩
  | .hbm, ⟨38, _⟩ => ⟨S4096x6144, .bf16⟩
  | .hbm, ⟨39, _⟩ => ⟨S1x6144, .f32⟩
  | .hbm, ⟨40, _⟩ => ⟨S4096x6144, .bf16⟩
  | .hbm, ⟨41, _⟩ => ⟨S1x2048, .f32⟩
  | .hbm, ⟨42, _⟩ => ⟨S4096x2048, .f32⟩
  | .hbm, ⟨43, _⟩ => ⟨S4096x2016, .f32⟩
  | .local _ .vmem, ⟨0, _⟩ => ⟨S256x2048, .bf16⟩
  | .local _ .vmem, ⟨1, _⟩ => ⟨S256x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S256x6144, .bf16⟩
  | .local _ .vmem, ⟨9, _⟩ => ⟨S256x6144, .bf16⟩
  | .local _ .vmem, ⟨10, _⟩ => ⟨S1024x6144, .bf16⟩
  | .local _ .vmem, ⟨11, _⟩ => ⟨S1024x6144, .bf16⟩
  | .local _ .vmem, ⟨12, _⟩ => ⟨S1x1024, .f32⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S256x6144, .bf16⟩
  | .local _ .vmem, ⟨17, _⟩ => ⟨S256x6144, .bf16⟩
  | .local _ .vmem, ⟨18, _⟩ => ⟨S1024x6144, .bf16⟩
  | .local _ .vmem, ⟨19, _⟩ => ⟨S1024x6144, .bf16⟩
  | .local _ .vmem, ⟨20, _⟩ => ⟨S1x1024, .f32⟩
  | .local _ .vmem, ⟨21, _⟩ => ⟨S1x1024, .f32⟩
  | .local _ .vmem, ⟨22, _⟩ => ⟨S256x1024, .bf16⟩
  | .local _ .vmem, ⟨23, _⟩ => ⟨S256x1024, .bf16⟩
  | .local _ .vmem, ⟨24, _⟩ => ⟨S256x6144, .bf16⟩
  | .local _ .vmem, ⟨25, _⟩ => ⟨S256x6144, .bf16⟩
  | .local _ .vmem, ⟨26, _⟩ => ⟨S1024x6144, .bf16⟩
  | .local _ .vmem, ⟨27, _⟩ => ⟨S1024x6144, .bf16⟩
  | .local _ .vmem, ⟨28, _⟩ => ⟨S1x1024, .f32⟩
  | .local _ .vmem, ⟨29, _⟩ => ⟨S1x1024, .f32⟩
  | .local _ .vmem, ⟨30, _⟩ => ⟨S256x1024, .bf16⟩
  | .local _ .vmem, ⟨31, _⟩ => ⟨S256x1024, .bf16⟩
  | .local _ .vmem, ⟨32, _⟩ => ⟨S256x6144, .bf16⟩
  | .local _ .vmem, ⟨33, _⟩ => ⟨S256x6144, .bf16⟩
  | .local _ .vmem, ⟨34, _⟩ => ⟨S1024x6144, .bf16⟩
  | .local _ .vmem, ⟨35, _⟩ => ⟨S1024x6144, .bf16⟩
  | .local _ .vmem, ⟨36, _⟩ => ⟨S1x1024, .f32⟩
  | .local _ .vmem, ⟨37, _⟩ => ⟨S1x1024, .f32⟩
  | .local _ .vmem, ⟨38, _⟩ => ⟨S256x1024, .f32⟩
  | .local _ .vmem, ⟨39, _⟩ => ⟨S256x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_call0_v0 : Ref sig .tc := ⟨.hbm, 27, rfl⟩
abbrev main_v10 : Ref sig .tc := ⟨.hbm, 28, rfl⟩
abbrev main_c_0 : Ref sig .tc := ⟨.hbm, 29, rfl⟩
abbrev main_call1_v0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![6, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x6144 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x6144 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![6, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S256x6144 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x6144 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S256x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![6, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S256x6144 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x6144 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S256x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![2, 16], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S256x6144 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024x6144 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S256x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

class Facts₀ : Prop where
  bitsLt_bf16_f32 : FTy.bits .bf16 < FTy.bits .f32
  pads_S2016x6144_S2048x6144_0320_000 : S2016x6144.Pads (![0, 0] : Fin 2 → Nat) ![32, 0] ![0, 0] S2048x6144
  h_S_ : 0 < S_.numel
  pads_S2016_S2048_0320 : S2016.Pads (![0] : Fin 1 → Nat) ![32] ![0] S2048
  shapeCasts_S6144_S1x6144 : S6144.ShapeCasts S1x6144
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  packedbf16_S256x1024_S256x1024_0_0 : (Rect.unit (s := S256x1024) ![0, 0] S256x1024.size inb_S256x1024_S256x1024_0_0).PackedRows (EltTy.packing .bf16)
  inb_S256x6144_S256x6144_0_0 : ∀ a, (![0, 0] : Fin 2 → Nat) a + S256x6144.size a ≤ S256x6144.size a
  h_S256x6144 : 0 < S256x6144.numel
  shapeCasts_S256x6144_S256x6144 : S256x6144.ShapeCasts S256x6144
  inb_S1024x6144_S1024x6144_0_0 : ∀ a, (![0, 0] : Fin 2 → Nat) a + S1024x6144.size a ≤ S1024x6144.size a
  h_S1024x6144 : 0 < S1024x6144.numel
  shapeCasts_S1024x6144_S1024x6144 : S1024x6144.ShapeCasts S1024x6144
  shapeCasts_S2048_S1x2048 : S2048.ShapeCasts S1x2048
  slices_S4096x2048_S4096x2016_0_0 : S4096x2048.Slices ![0, 0] S4096x2016
  dot_S256x2048_S1024x2048_S256x1024_1_1_0_0_n_n_wf : DotDims.WF S256x2048 S1024x2048 S256x1024 [1] [1] [0] [0] [] []
  dot_S256x6144_S1024x6144_S256x1024_1_1_0_0_n_n_wf : DotDims.WF S256x6144 S1024x6144 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .bf16 = 32 ∨ (Rect.block (s := S4096x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S6144x2048.size a
  hwx0_1 : ∀ i : grid0.Coords, EltTy.bits .bf16 = 32 ∨ (Rect.block (s := S6144x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x6144.size a
  hwx0_2 : ∀ i : grid0.Coords, EltTy.bits .f32 = 32 ∨ (Rect.block (s := S1x6144) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x6144.size a
  hwx0_3 : ∀ i : grid0.Coords, EltTy.bits .bf16 = 32 ∨ (Rect.block (s := S4096x6144) S256x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x6144.size a ≤ S4096x6144.size a
  hwx1_0 : ∀ i : grid1.Coords, EltTy.bits .bf16 = 32 ∨ (Rect.block (s := S4096x6144) S256x6144.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x6144.size a ≤ S6144x6144.size a
  hwx1_1 : ∀ i : grid1.Coords, EltTy.bits .bf16 = 32 ∨ (Rect.block (s := S6144x6144) S1024x6144.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x6144.size a
  hwx1_2 : ∀ i : grid1.Coords, EltTy.bits .f32 = 32 ∨ (Rect.block (s := S1x6144) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S4096x6144.size a
  hwx1_3 : ∀ i : grid1.Coords, EltTy.bits .bf16 = 32 ∨ (Rect.block (s := S4096x6144) S256x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x6144.size a ≤ S4096x6144.size a
  hwx2_0 : ∀ i : grid2.Coords, EltTy.bits .bf16 = 32 ∨ (Rect.block (s := S4096x6144) S256x6144.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x6144.size a ≤ S6144x6144.size a
  hwx2_1 : ∀ i : grid2.Coords, EltTy.bits .bf16 = 32 ∨ (Rect.block (s := S6144x6144) S1024x6144.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x6144.size a
  hwx2_2 : ∀ i : grid2.Coords, EltTy.bits .f32 = 32 ∨ (Rect.block (s := S1x6144) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1024.size a ≤ S4096x6144.size a
  hwx2_3 : ∀ i : grid2.Coords, EltTy.bits .bf16 = 32 ∨ (Rect.block (s := S4096x6144) S256x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x6144.size a ≤ S4096x6144.size a
  hwx3_0 : ∀ i : grid3.Coords, EltTy.bits .bf16 = 32 ∨ (Rect.block (s := S4096x6144) S256x6144.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x6144.size a ≤ S6144x6144.size a
  hwx3_1 : ∀ i : grid3.Coords, EltTy.bits .bf16 = 32 ∨ (Rect.block (s := S6144x6144) S1024x6144.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x6144.size a
  hwx3_2 : ∀ i : grid3.Coords, EltTy.bits .f32 = 32 ∨ (Rect.block (s := S1x6144) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x1024.size a ≤ S4096x6144.size a
  hwx3_3 : ∀ i : grid3.Coords, EltTy.bits .bf16 = 32 ∨ (Rect.block (s := S4096x6144) S256x1024.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x6144.size a ≤ S4096x6144.size a
  hwx4_0 : ∀ i : grid4.Coords, EltTy.bits .bf16 = 32 ∨ (Rect.block (s := S4096x6144) S256x6144.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x6144.size a ≤ S2048x6144.size a
  hwx4_1 : ∀ i : grid4.Coords, EltTy.bits .bf16 = 32 ∨ (Rect.block (s := S2048x6144) S1024x6144.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x2048.size a
  hwx4_2 : ∀ i : grid4.Coords, EltTy.bits .f32 = 32 ∨ (Rect.block (s := S1x2048) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x1024.size a ≤ S4096x2048.size a
  hwx4_3 : ∀ i : grid4.Coords, EltTy.bits .f32 = 32 ∨ (Rect.block (s := S4096x2048) S256x1024.size (cc4_transform_3 i) (hinb4_3 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S256x6144_S1024x6144_S256x1024_1_1_0_0_n_n : DotDims S256x6144 S1024x6144 S256x1024 where
  lhsContracting := [1]
  rhsContracting := [1]
  lhsNonContracting := [0]
  rhsNonContracting := [0]
  lhsBatch := []
  rhsBatch := []
  wf := dot_S256x6144_S1024x6144_S256x1024_1_1_0_0_n_n_wf

abbrev win0_0 : Pipeline.Window sig grid0 :=
  Pipeline.Window.ofSpec (Memref.whole main_v12) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S256x6144.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x6144.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S256x6144.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x6144.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S256x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v18) S256x6144.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S1024x6144.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v19) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v20) S256x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v20) S256x6144.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S1024x6144.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v21) S1x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v22) S256x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4096x2048 : Shape := ⟨2, ![4096, 2048]⟩
abbrev S6144x2048 : Shape := ⟨2, ![6144, 2048]⟩
abbrev S6144 : Shape := ⟨1, ![6144]⟩
abbrev S6144x6144 : Shape := ⟨2, ![6144, 6144]⟩
abbrev S2016x6144 : Shape := ⟨2, ![2016, 6144]⟩
abbrev S2016 : Shape := ⟨1, ![2016]⟩
abbrev S2048x6144 : Shape := ⟨2, ![2048, 6144]⟩
abbrev S4096x6144 : Shape := ⟨2, ![4096, 6144]⟩
abbrev S1x6144 : Shape := ⟨2, ![1, 6144]⟩
abbrev S_ : Shape := ⟨0, ![]⟩
abbrev S6144x2016 : Shape := ⟨2, ![6144, 2016]⟩
abbrev S4096x2016 : Shape := ⟨2, ![4096, 2016]⟩
abbrev S1x2016 : Shape := ⟨2, ![1, 2016]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S6144x2048, .f32⟩
  | .hbm, ⟨2, _⟩ => ⟨S6144, .f32⟩
  | .hbm, ⟨3, _⟩ => ⟨S6144x6144, .f32⟩
  | .hbm, ⟨4, _⟩ => ⟨S6144, .f32⟩
  | .hbm, ⟨5, _⟩ => ⟨S6144x6144, .f32⟩
  | .hbm, ⟨6, _⟩ => ⟨S6144, .f32⟩
  | .hbm, ⟨7, _⟩ => ⟨S6144x6144, .f32⟩
  | .hbm, ⟨8, _⟩ => ⟨S6144, .f32⟩
  | .hbm, ⟨9, _⟩ => ⟨S2016x6144, .f32⟩
  | .hbm, ⟨10, _⟩ => ⟨S2016, .f32⟩
  | .hbm, ⟨11, _⟩ => ⟨S6144x2048, .f32⟩
  | .hbm, ⟨12, _⟩ => ⟨S6144x6144, .f32⟩
  | .hbm, ⟨13, _⟩ => ⟨S6144x6144, .f32⟩
  | .hbm, ⟨14, _⟩ => ⟨S6144x6144, .f32⟩
  | .hbm, ⟨15, _⟩ => ⟨S2016x6144, .f32⟩
  | .hbm, ⟨16, _⟩ => ⟨S6144x2048, .f32⟩
  | .hbm, ⟨17, _⟩ => ⟨S2048x6144, .f32⟩
  | .hbm, ⟨18, _⟩ => ⟨S4096x6144, .f32⟩
  | .hbm, ⟨19, _⟩ => ⟨S1x6144, .f32⟩
  | .hbm, ⟨20, _⟩ => ⟨S4096x6144, .f32⟩
  | .hbm, ⟨21, _⟩ => ⟨S4096x6144, .f32⟩
  | .hbm, ⟨22, _⟩ => ⟨S_, .f32⟩
  | .hbm, ⟨23, _⟩ => ⟨S4096x6144, .f32⟩
  | .hbm, ⟨24, _⟩ => ⟨S4096x6144, .i1⟩
  | .hbm, ⟨25, _⟩ => ⟨S_, .f32⟩
  | .hbm, ⟨26, _⟩ => ⟨S4096x6144, .f32⟩
  | .hbm, ⟨27, _⟩ => ⟨S4096x6144, .f32⟩
  | .hbm, ⟨28, _⟩ => ⟨S4096x6144, .f32⟩
  | .hbm, ⟨29, _⟩ => ⟨S6144x6144, .f32⟩
  | .hbm, ⟨30, _⟩ => ⟨S6144x6144, .f32⟩
  | .hbm, ⟨31, _⟩ => ⟨S4096x6144, .f32⟩
  | .hbm, ⟨32, _⟩ => ⟨S1x6144, .f32⟩
  | .hbm, ⟨33, _⟩ => ⟨S4096x6144, .f32⟩
  | .hbm, ⟨34, _⟩ => ⟨S4096x6144, .f32⟩
  | .hbm, ⟨35, _⟩ => ⟨S_, .f32⟩
  | .hbm, ⟨36, _⟩ => ⟨S4096x6144, .f32⟩
  | .hbm, ⟨37, _⟩ => ⟨S4096x6144, .i1⟩
  | .hbm, ⟨38, _⟩ => ⟨S_, .f32⟩
  | .hbm, ⟨39, _⟩ => ⟨S4096x6144, .f32⟩
  | .hbm, ⟨40, _⟩ => ⟨S4096x6144, .f32⟩
  | .hbm, ⟨41, _⟩ => ⟨S4096x6144, .f32⟩
  | .hbm, ⟨42, _⟩ => ⟨S6144x6144, .f32⟩
  | .hbm, ⟨43, _⟩ => ⟨S6144x6144, .f32⟩
  | .hbm, ⟨44, _⟩ => ⟨S4096x6144, .f32⟩
  | .hbm, ⟨45, _⟩ => ⟨S1x6144, .f32⟩
  | .hbm, ⟨46, _⟩ => ⟨S4096x6144, .f32⟩
  | .hbm, ⟨47, _⟩ => ⟨S4096x6144, .f32⟩
  | .hbm, ⟨48, _⟩ => ⟨S_, .f32⟩
  | .hbm, ⟨49, _⟩ => ⟨S4096x6144, .f32⟩
  | .hbm, ⟨50, _⟩ => ⟨S4096x6144, .i1⟩
  | .hbm, ⟨51, _⟩ => ⟨S_, .f32⟩
  | .hbm, ⟨52, _⟩ => ⟨S4096x6144, .f32⟩
  | .hbm, ⟨53, _⟩ => ⟨S4096x6144, .f32⟩
  | .hbm, ⟨54, _⟩ => ⟨S4096x6144, .f32⟩
  | .hbm, ⟨55, _⟩ => ⟨S6144x6144, .f32⟩
  | .hbm, ⟨56, _⟩ => ⟨S6144x6144, .f32⟩
  | .hbm, ⟨57, _⟩ => ⟨S4096x6144, .f32⟩
  | .hbm, ⟨58, _⟩ => ⟨S1x6144, .f32⟩
  | .hbm, ⟨59, _⟩ => ⟨S4096x6144, .f32⟩
  | .hbm, ⟨60, _⟩ => ⟨S4096x6144, .f32⟩
  | .hbm, ⟨61, _⟩ => ⟨S_, .f32⟩
  | .hbm, ⟨62, _⟩ => ⟨S4096x6144, .f32⟩
  | .hbm, ⟨63, _⟩ => ⟨S4096x6144, .i1⟩
  | .hbm, ⟨64, _⟩ => ⟨S_, .f32⟩
  | .hbm, ⟨65, _⟩ => ⟨S4096x6144, .f32⟩
  | .hbm, ⟨66, _⟩ => ⟨S4096x6144, .f32⟩
  | .hbm, ⟨67, _⟩ => ⟨S4096x6144, .f32⟩
  | .hbm, ⟨68, _⟩ => ⟨S2016x6144, .f32⟩
  | .hbm, ⟨69, _⟩ => ⟨S6144x2016, .f32⟩
  | .hbm, ⟨70, _⟩ => ⟨S4096x2016, .f32⟩
  | .hbm, ⟨71, _⟩ => ⟨S1x2016, .f32⟩
  | .hbm, ⟨72, _⟩ => ⟨S4096x2016, .f32⟩
  | .hbm, ⟨73, _⟩ => ⟨S4096x2016, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]

class Facts₀ : Prop where
  transposes_S6144x2048_S2048x6144_1_0 : S6144x2048.Transposes [1, 0] S2048x6144
  bcast_S6144_S1x6144_1 : S6144.BroadcastsInDim S1x6144 (![1] : Fin 1 → Fin S1x6144.rank)
  bcast_S1x6144_S4096x6144_0_1 : S1x6144.BroadcastsInDim S4096x6144 (![0, 1] : Fin 2 → Fin S4096x6144.rank)
  bcast_S_S4096x6144 : S_.BroadcastsInDim S4096x6144 (![] : Fin 0 → Fin S4096x6144.rank)
  transposes_S6144x6144_S6144x6144_1_0 : S6144x6144.Transposes [1, 0] S6144x6144
  transposes_S2016x6144_S6144x2016_1_0 : S2016x6144.Transposes [1, 0] S6144x2016
  bcast_S2016_S1x2016_1 : S2016.BroadcastsInDim S1x2016 (![1] : Fin 1 → Fin S1x2016.rank)
  bcast_S1x2016_S4096x2016_0_1 : S1x2016.BroadcastsInDim S4096x2016 (![0, 1] : Fin 2 → Fin S4096x2016.rank)
  dot_S4096x2048_S2048x6144_S4096x6144_1_0_0_1_n_n_wf : DotDims.WF S4096x2048 S2048x6144 S4096x6144 [1] [0] [0] [1] [] []
  dot_S4096x6144_S6144x6144_S4096x6144_1_0_0_1_n_n_wf : DotDims.WF S4096x6144 S6144x6144 S4096x6144 [1] [0] [0] [1] [] []
  dot_S4096x6144_S6144x2016_S4096x2016_1_0_0_1_n_n_wf : DotDims.WF S4096x6144 S6144x2016 S4096x2016 [1] [0] [0] [1] [] []

variable [Facts₀]

def dot_S4096x2048_S2048x6144_S4096x6144_1_0_0_1_n_n : DotDims S4096x2048 S2048x6144 S4096x6144 where
  lhsContracting := [1]
  rhsContracting := [0]
  lhsNonContracting := [0]
  rhsNonContracting := [1]
  lhsBatch := []
  rhsBatch := []
  wf := dot_S4096x2048_S2048x6144_S4096x6144_1_0_0_1_n_n_wf
def dot_S4096x6144_S6144x6144_S4096x6144_1_0_0_1_n_n : DotDims S4096x6144 S6144x6144 S4096x6144 where
  lhsContracting := [1]
  rhsContracting := [0]
  lhsNonContracting := [0]
  rhsNonContracting := [1]
  lhsBatch := []
  rhsBatch := []
  wf := dot_S4096x6144_S6144x6144_S4096x6144_1_0_0_1_n_n_wf
def dot_S4096x6144_S6144x2016_S4096x2016_1_0_0_1_n_n : DotDims S4096x6144 S6144x2016 S4096x2016 where
  lhsContracting := [1]
  rhsContracting := [0]
  lhsNonContracting := [0]
  rhsNonContracting := [1]
  lhsBatch := []
  rhsBatch := []
  wf := dot_S4096x6144_S6144x2016_S4096x2016_1_0_0_1_n_n_wf

class Facts : Prop extends Facts₀ where

variable [Facts]
-- ==== Proof.KernelRun.lean ====
/-
  The kernel program's run, with the returned array named.

  Every weakly fair execution of the program on the TensorCores terminates without a fault; when it has, every
  buffer that outlives the launches holds what the fold of the program's segments leaves in it: a stretch of host
  operations rewrites the buffers its operations write, a launch its result array.  Read at the returned buffer this
  names the program's result; read at an argument's buffer it is the launch contents.  The segments, the proof data
  of the five launches and the thread states between them are those of the generated frame module.
-/
import proofs.«142621_j62912680952394_2_alg».proof.Proof.Gen.KernelIdeal.Frame

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the returned array ends at the last boundary's contents, the sixteen arguments as launched. -/
theorem run_named : θ_run defs (onTc (τ := τ) (main (F := F))) ⟨m, fun _ => 0, ρ⟩ (fun r => ∀ c : Dev nD,
      r.2.mem ((c.tc : Thread nD τ).loc main_v23) = W15 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v23 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c)⟩)

end Cert.KernelIdeal.Value

end
-- ==== Proof.Layer.lean ====
/-
  Dense layers over the extended reals.

  A dense layer takes a batch of rows X (one row per sample), a weight matrix W with one row per output feature, a
  0/1 mask of W's shape and a bias vector b, and gives   X · (W ∘ mask)ᵀ + b :   entry (r, c) is the sum over the
  input features d of  X[r, d] · (W[c, d] · mask[c, d]),  plus b[c].  A hidden layer passes every entry through the
  leaky rectifier  v ↦ v if v ≥ 0, else slope · v  (the slope is the float nearest 0.01, kept as its bit pattern:
  both programs spell the same word, so its value is never needed).

  The same layer appears in two spellings.  One is given the masked weights already multiplied out and the bias as a
  one-row matrix (what one launch of the tiled kernel computes from its three operand arrays); the other is the layer
  of the network's definition.  This file states both and the five-layer network.
-/
import Idealize.ShloMosaic.PureOps.Ideal.Laws
import Idealize.ShloMosaic.Lib.ValueIdx
import Idealize.ShloMosaic.Lib.ValueLayout
import Idealize.ShloMosaic.Lib.Pipeline.Value

open scoped BigOperators

noncomputable section

namespace Cert.Mlp

open Idealize.ShloMosaic Idealize.ShloMosaic.ValueIdx

/-- A two-axis array of extended reals. -/
abbrev Mat (n k : Nat) := (⟨2, ![n, k]⟩ : Shape).Idx → EReal
/-- A one-axis array of extended reals. -/
abbrev Vect (n : Nat) := (⟨1, ![n]⟩ : Shape).Idx → EReal

/-- The leaky rectifier: v where v ≥ 0, the slope times v elsewhere. -/
def leaky (v : EReal) : EReal :=
  Scalar.select (Ideal.cmp .oge v (Ideal.ofBits .f32 0x00000000#32)) v (Ideal.ofBits .f32 0x3C23D70A#32 * v)

/-! ## A layer on multiplied-out weights and a one-row bias -/

/-- X · Wᵀ + B, the bias B a one-row matrix. -/
def affineRow {m k n : Nat} (X : Mat m k) (W : Mat n k) (B : Mat 1 n) : Mat m n :=
  fun i => (∑ d : Fin k, X (ix2 (i 0) d) * W (ix2 (i 1) d)) + B (ix2 (0 : Fin 1) (i 1))

/-- The same through the leaky rectifier. -/
def hiddenRow {m k n : Nat} (X : Mat m k) (W : Mat n k) (B : Mat 1 n) : Mat m n := fun i => leaky (affineRow X W B i)

/-! ## The network's layers -/

/-- X · (W ∘ Mk)ᵀ + b. -/
def affine {m k n : Nat} (X : Mat m k) (W Mk : Mat n k) (b : Vect n) : Mat m n :=
  fun i => (∑ d : Fin k, X (ix2 (i 0) d) * (W (ix2 (i 1) d) * Mk (ix2 (i 1) d))) + b (ix1 (i 1))

/-- The same through the leaky rectifier. -/
def hidden {m k n : Nat} (X : Mat m k) (W Mk : Mat n k) (b : Vect n) : Mat m n := fun i => leaky (affine X W Mk b i)

theorem affine_apply {m k n : Nat} (X : Mat m k) (W Mk : Mat n k) (b : Vect n) (r : Fin m) (c : Fin n) :
    affine X W Mk b (ix2 r c) = (∑ d : Fin k, X (ix2 r d) * (W (ix2 c d) * Mk (ix2 c d))) + b (ix1 c) := rfl

theorem hidden_apply {m k n : Nat} (X : Mat m k) (W Mk : Mat n k) (b : Vect n) (r : Fin m) (c : Fin n) :
    hidden X W Mk b (ix2 r c) = leaky ((∑ d : Fin k, X (ix2 r d) * (W (ix2 c d) * Mk (ix2 c d))) + b (ix1 c)) := rfl

/-- Four hidden layers and a last layer without the rectifier. -/
def net {m k h o : Nat} (x : Mat m k) (W0 M0 : Mat h k) (b0 : Vect h) (W1 M1 : Mat h h) (b1 : Vect h)
    (W2 M2 : Mat h h) (b2 : Vect h) (W3 M3 : Mat h h) (b3 : Vect h) (Wo Mo : Mat o h) (bo : Vect o) : Mat m o :=
  affine (hidden (hidden (hidden (hidden x W0 M0 b0) W1 M1 b1) W2 M2 b2) W3 M3 b3) Wo Mo bo

end Cert.Mlp

end
-- ==== Proof.LibMatmulLastAxes.lean ====
/-
  A matrix product that contracts the LAST axis of both operands, read at an entry, at the ideal values.

  The tiled kernels' product of an [M, K] block of activations with an [N, K] block of weights (one weight row per
  output feature: the right operand is NOT transposed first; the dimension numbers contract axis 1 of both) into a
  zero accumulator is, at entry (r, c), the plain sum over d of  l[r, d] · w[c, d]:  at the ideal values no rounding,
  no chunk order and no accumulator are left.  Stated for every M, K, N over the library's record of these dimension
  numbers; a printed record of the same seven lists is that record by definitional unfolding (its well-formedness field
  is a proof).
-/
import Idealize.ShloMosaic.PureOps.Ideal.Laws
import Idealize.ShloMosaic.Lib.ValueIdx

open scoped BigOperators

namespace Cert.LibMatmulLastAxes

open Idealize.ShloMosaic Idealize.ShloMosaic.ValueIdx

/-- A matrix product contracting the last axis of both operands, into the zero accumulator, at (r, c): the sum over
    d of l[r, d] · w[c, d]. -/
theorem matmul_lastAxes_zero_apply {M K N : Nat} {φ₁ φ₂ : FTy} (prec : Option ContractPrecision)
    (l : FVec Ideal ⟨2, ![M, K]⟩ φ₁) (w : FVec Ideal ⟨2, ![N, K]⟩ φ₂) (r : Fin M) (c : Fin N) :
    FloatOps.matmul (DotDims.transposedRhs M K N) prec l w (constant ⟨2, ![M, N]⟩ .f32 0x00000000#32) (ix2 r c)
      = ∑ d : Fin K, l (ix2 r d) * w (ix2 c d) := by
  rw [Ideal.matmul_constant_zero_apply]
  have hr : (DotDims.transposedRhs M K N).contr.rank = 1 := rfl
  have hs : (DotDims.transposedRhs M K N).contr.size ⟨0, by omega⟩ = K := rfl
  rw [← Equiv.sum_comp (contrEquiv1 (DotDims.transposedRhs M K N) K hr hs).symm]
  refine Finset.sum_congr rfl fun d _ => ?_
  have hd := contrEquiv1_symm_val (DotDims.transposedRhs M K N) K hr hs d
  congr 1
  · refine congrArg l (funext fun a => Fin.ext ?_)
    match a with
    | ⟨0, _⟩ => rfl
    | ⟨1, _⟩ => exact ((DotDims.transposedRhs M K N).lhsIdx_val_of_single rfl _ _).trans hd
  · refine congrArg w (funext fun a => Fin.ext ?_)
    match a with
    | ⟨0, _⟩ => rfl
    | ⟨1, _⟩ => exact ((DotDims.transposedRhs M K N).rhsIdx_val_of_single rfl _ _).trans hd

end Cert.LibMatmulLastAxes
-- ==== Proof.Region0.lean ====
/-
  The first launch of the tiled layer kernel, as one function of its operand arrays.

  The launch walks a grid of (column tile, row tile) points.  At a point the body is handed a block of 256 rows of the
  activations (all 2048 input features), a block of 1024 rows of the multiplied-out weights (one row per output feature
  of the tile), and the tile's 1024 bias entries as one row; it stores the 256 × 1024 tile of the result: entry (p, q)
  is the sum over the input features d of  activations[p, d] · weights[q, d],  plus bias[q], through the leaky
  rectifier.  The row tile moves with the activations and the column tile with the weights and the bias, so the
  tile written at a point is the same function of the WHOLE operand arrays, read at the tile's place in the result;
  and the tiles of the 6 × 16 grid cover the result array.  So after the launch the result array is that function
  of the three operand arrays as the launch found them.
-/
import proofs.«142621_j62912680952394_2_alg».proof.Proof.Gen.KernelIdeal.Frame
import proofs.«142621_j62912680952394_2_alg».proof.Proof.Layer
import proofs.«142621_j62912680952394_2_alg».proof.Proof.LibMatmulLastAxes
import Idealize.ShloMosaic.Lib.Pipeline.Value

set_option maxRecDepth 16384

open scoped BigOperators

noncomputable section

namespace Cert.KernelIdeal.Region0

open Cert.KernelIdeal Cert.KernelIdeal.Gen Idealize.ShloMosaic Idealize.ShloMosaic.TcCoe Idealize.ShloMosaic.ValueIdx Cert.Mlp
open Cert.LibMatmulLastAxes
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The value the body stores, at an entry of the tile. -/
theorem payload_apply (x0 : Vec Ideal S256x2048 .bf16) (x1 : Vec Ideal S1024x2048 .bf16) (x2 : Vec Ideal S1x1024 .f32)
    (p : Fin 256) (q : Fin 1024) :
    k0_pay1 x0 x1 x2 (ix2 p q)
      = leaky ((∑ d : Fin 2048, x0 (ix2 p d) * x1 (ix2 q d)) + x2 (ix2 (0 : Fin 1) q)) := by
  have h : k0_pay1 x0 x1 x2 (ix2 p q)
      = leaky (FloatOps.matmul (F := Ideal) (φ₁ := .bf16) (φ₂ := .bf16) (DotDims.transposedRhs 256 2048 1024) none
            (shapeCast S256x2048 x0 shapeCasts_S256x2048_S256x2048 : FVec Ideal S256x2048 .bf16)
            (shapeCast S1024x2048 x1 shapeCasts_S1024x2048_S1024x2048 : FVec Ideal S1024x2048 .bf16)
            (constant (F := Ideal) S256x1024 .f32 0x00000000#32) (ix2 p q)
          + (broadcastTo S256x1024 (shapeCast S1x1024 x2 shapeCasts_S1x1024_S1x1024 : FVec Ideal S1x1024 .f32) broadcasts_S1x1024_S256x1024 : FVec Ideal S256x1024 .f32) (ix2 p q)) := rfl
  rw [h, shapeCast_self, shapeCast_self, shapeCast_self, matmul_lastAxes_zero_apply, broadcastTo_1b_ab_apply]

/-- Where the windows sit at a point: the activations' block moves with the result tile's rows, the weights' and the
    bias's with its columns, and the other block coordinate of each stays at zero (decided over the grid's points). -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 15 ∧ win0_3.index t (1 : Fin 2) ≤ 5 :=
  (by decide +kernel : ∀ t : Fin grid0.N, _)

/-- Every tile of the result is some point's. -/
theorem idx_onto : ∀ (q0 : Fin 16) (q1 : Fin 6), ∃ t : Fin cfg0.N, win0_3.index t = ![q0.val, q1.val] :=
  (by decide +kernel : ∀ (q0 : Fin 16) (q1 : Fin 6), ∃ t : Fin grid0.N, win0_3.index t = ![q0.val, q1.val])

/-- The activations' block at a point is rows of the activations array: those of the result tile. -/
theorem xblk_apply (c : Dev nD) (t : Fin cfg0.N) (p : Fin 256) (d : Fin 2048) (r : Fin 4096)
    (hr : r.val = win0_3.index t (0 : Fin 2) * 256 + p.val) :
    (iblk0 V c 0 t : Vec Ideal S256x2048 .bf16) (ix2 p d) = (V c main_v12 : Mat 4096 2048) (ix2 r d) := by
  obtain ⟨e0, e1, e2, e3, e4, e5, e6, e7⟩ := idx_facts t
  unfold iblk0
  rw [View.read_apply]
  show V c main_v12 _ = V c main_v12 _
  congr 1
  funext a
  apply Fin.ext
  match a with
  | ⟨0, _⟩ => show win0_0.index t (0 : Fin 2) * 256 + 1 * p.val = r.val; rw [e0, hr]; omega
  | ⟨1, _⟩ => show win0_0.index t (1 : Fin 2) * 2048 + 1 * d.val = d.val; rw [e1]; omega

/-- The weights' block at a point is rows of the weight array: one per column of the result tile. -/
theorem wblk_apply (c : Dev nD) (t : Fin cfg0.N) (q : Fin 1024) (d : Fin 2048) (s : Fin 6144)
    (hs : s.val = win0_3.index t (1 : Fin 2) * 1024 + q.val) :
    (iblk0 V c 1 t : Vec Ideal S1024x2048 .bf16) (ix2 q d) = (V c main_v1 : Mat 6144 2048) (ix2 s d) := by
  obtain ⟨e0, e1, e2, e3, e4, e5, e6, e7⟩ := idx_facts t
  unfold iblk0
  rw [View.read_apply]
  show V c main_v1 _ = V c main_v1 _
  congr 1
  funext a
  apply Fin.ext
  match a with
  | ⟨0, _⟩ => show win0_1.index t (0 : Fin 2) * 1024 + 1 * q.val = s.val; rw [e2, hs]; omega
  | ⟨1, _⟩ => show win0_1.index t (1 : Fin 2) * 2048 + 1 * d.val = d.val; rw [e3]; omega

/-- The bias's block at a point is the one-row bias array at the columns of the result tile. -/
theorem bblk_apply (c : Dev nD) (t : Fin cfg0.N) (q : Fin 1024) (s : Fin 6144)
    (hs : s.val = win0_3.index t (1 : Fin 2) * 1024 + q.val) :
    (iblk0 V c 2 t : Vec Ideal S1x1024 .f32) (ix2 (0 : Fin 1) q) = (V c main_v13 : Mat 1 6144) (ix2 (0 : Fin 1) s) := by
  obtain ⟨e0, e1, e2, e3, e4, e5, e6, e7⟩ := idx_facts t
  unfold iblk0
  rw [View.read_apply]
  show V c main_v13 _ = V c main_v13 _
  congr 1
  funext a
  apply Fin.ext
  match a with
  | ⟨0, _⟩ => show win0_2.index t (0 : Fin 2) * 1 + 1 * 0 = 0; rw [e4]
  | ⟨1, _⟩ => show win0_2.index t (1 : Fin 2) * 1024 + 1 * q.val = s.val; rw [e5, hs]; omega

/-- What the launch leaves in the result array, as one function of the operand arrays as it found them. -/
abbrev G (c : Dev nD) : Mat 4096 6144 :=
  hiddenRow (V c main_v12 : Mat 4096 2048) (V c main_v1 : Mat 6144 2048) (V c main_v13 : Mat 1 6144)

/-- What a point writes back is its tile of that function. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S256x2048) hz, View.ld_unit_zero (S := S1024x2048) hz, View.ld_unit_zero (S := S1x1024) hz]
  funext j
  obtain ⟨p, q, rfl⟩ : ∃ (p : Fin 256) (q : Fin 1024), j = ix2 p q := ⟨j 0, j 1, eq_ix2 j⟩
  rw [View.read_apply]
  refine (payload_apply (iblk0 V c 0 t) (iblk0 V c 1 t) (iblk0 V c 2 t) p q).trans ?_
  show _ = G V c (((cfg0.win 3).blk t).view.emb (ix2 p q))
  unfold G hiddenRow affineRow
  refine congrArg leaky (congrArg₂ (· + ·) (Finset.sum_congr rfl fun d _ => congrArg₂ (· * ·) ?_ ?_) ?_)
  · exact xblk_apply V c t p d _ (by
      show win0_3.index t (0 : Fin 2) * 256 + 1 * p.val = _
      omega)
  · exact wblk_apply V c t q d _ (by
      show win0_3.index t (1 : Fin 2) * 1024 + 1 * q.val = _
      omega)
  · exact bblk_apply V c t q _ (by
      show win0_3.index t (1 : Fin 2) * 1024 + 1 * q.val = _
      omega)

/-- An entry of the result array lies in a point's tile iff each coordinate is in the tile's range on its axis. -/
theorem mem_blk (t : Fin cfg0.N) (i : S4096x6144.Idx) :
    i ∈ ((cfg0.win 3).blk t).view.set ↔ ∀ a : Fin 2, win0_3.index t a * S256x1024.size a ≤ (i a).val
      ∧ (i a).val < win0_3.index t a * S256x1024.size a + S256x1024.size a := by
  show i ∈ ((View.whole main_v14).slice (win0_3.rect t)).set ↔ _
  rw [View.set_slice_whole, Rect.mem_set_unit]
  exact Iff.rfl

/-- The tiles cover the result array: entry (r, s) is in the tile of row tile r / 256 and column tile s / 1024. -/
theorem cover (i : S4096x6144.Idx) :
    ∃ t : Fin cfg0.N, (cfg0.win 3).flush t = true ∧ i ∈ ((cfg0.win 3).blk t).view.set := by
  have hi0 : (i 0).val < 4096 := (i 0).isLt
  have hi1 : (i 1).val < 6144 := (i 1).isLt
  obtain ⟨t, ht⟩ := idx_onto ⟨(i 0).val / 256, by omega⟩ ⟨(i 1).val / 1024, by omega⟩
  have q0 : win0_3.index t (0 : Fin 2) = (i 0).val / 256 := congrFun ht 0
  have q1 : win0_3.index t (1 : Fin 2) = (i 1).val / 1024 := congrFun ht 1
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 1024 ≤ (i 1).val ∧ (i 1).val < win0_3.index t (1 : Fin 2) * 1024 + 1024
    omega

/-- After the launch the result array is that one function of the operand arrays as the launch found them. -/
theorem result (c : Dev nD) : (dat0 V c).arrAt 3 cfg0.N = G V c :=
  (dat0 V c).arrAt_eq_of_cover 3 (G V c) (fun t _ => flushed_eq V c t) cover

end Cert.KernelIdeal.Region0

end
-- ==== Proof.Region1.lean ====
/-
  The second launch of the tiled layer kernel, as one function of its operand arrays.

  The launch walks a grid of (column tile, row tile) points.  At a point the body is handed a block of 256 rows of the
  activations (all 6144 input features), a block of 1024 rows of the multiplied-out weights (one row per output feature
  of the tile), and the tile's 1024 bias entries as one row; it stores the 256 × 1024 tile of the result: entry (p, q)
  is the sum over the input features d of  activations[p, d] · weights[q, d],  plus bias[q], through the leaky
  rectifier.  The row tile moves with the activations and the column tile with the weights and the bias, so the
  tile written at a point is the same function of the WHOLE operand arrays, read at the tile's place in the result;
  and the tiles of the 6 × 16 grid cover the result array.  So after the launch the result array is that function
  of the three operand arrays as the launch found them.
-/
import proofs.«142621_j62912680952394_2_alg».proof.Proof.Gen.KernelIdeal.Frame
import proofs.«142621_j62912680952394_2_alg».proof.Proof.Layer
import proofs.«142621_j62912680952394_2_alg».proof.Proof.LibMatmulLastAxes
import Idealize.ShloMosaic.Lib.Pipeline.Value

set_option maxRecDepth 16384

open scoped BigOperators

noncomputable section

namespace Cert.KernelIdeal.Region1

open Cert.KernelIdeal Cert.KernelIdeal.Gen Idealize.ShloMosaic Idealize.ShloMosaic.TcCoe Idealize.ShloMosaic.ValueIdx Cert.Mlp
open Cert.LibMatmulLastAxes
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The value the body stores, at an entry of the tile. -/
theorem payload_apply (x0 : Vec Ideal S256x6144 .bf16) (x1 : Vec Ideal S1024x6144 .bf16) (x2 : Vec Ideal S1x1024 .f32)
    (p : Fin 256) (q : Fin 1024) :
    k1_pay1 x0 x1 x2 (ix2 p q)
      = leaky ((∑ d : Fin 6144, x0 (ix2 p d) * x1 (ix2 q d)) + x2 (ix2 (0 : Fin 1) q)) := by
  have h : k1_pay1 x0 x1 x2 (ix2 p q)
      = leaky (FloatOps.matmul (F := Ideal) (φ₁ := .bf16) (φ₂ := .bf16) (DotDims.transposedRhs 256 6144 1024) none
            (shapeCast S256x6144 x0 shapeCasts_S256x6144_S256x6144 : FVec Ideal S256x6144 .bf16)
            (shapeCast S1024x6144 x1 shapeCasts_S1024x6144_S1024x6144 : FVec Ideal S1024x6144 .bf16)
            (constant (F := Ideal) S256x1024 .f32 0x00000000#32) (ix2 p q)
          + (broadcastTo S256x1024 (shapeCast S1x1024 x2 shapeCasts_S1x1024_S1x1024 : FVec Ideal S1x1024 .f32) broadcasts_S1x1024_S256x1024 : FVec Ideal S256x1024 .f32) (ix2 p q)) := rfl
  rw [h, shapeCast_self, shapeCast_self, shapeCast_self, matmul_lastAxes_zero_apply, broadcastTo_1b_ab_apply]

/-- Where the windows sit at a point: the activations' block moves with the result tile's rows, the weights' and the
    bias's with its columns, and the other block coordinate of each stays at zero (decided over the grid's points). -/
theorem idx_facts : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = win1_3.index t (1 : Fin 2)
    ∧ win1_3.index t (0 : Fin 2) ≤ 15 ∧ win1_3.index t (1 : Fin 2) ≤ 5 :=
  (by decide +kernel : ∀ t : Fin grid1.N, _)

/-- Every tile of the result is some point's. -/
theorem idx_onto : ∀ (q0 : Fin 16) (q1 : Fin 6), ∃ t : Fin cfg1.N, win1_3.index t = ![q0.val, q1.val] :=
  (by decide +kernel : ∀ (q0 : Fin 16) (q1 : Fin 6), ∃ t : Fin grid1.N, win1_3.index t = ![q0.val, q1.val])

/-- The activations' block at a point is rows of the activations array: those of the result tile. -/
theorem xblk_apply (c : Dev nD) (t : Fin cfg1.N) (p : Fin 256) (d : Fin 6144) (r : Fin 4096)
    (hr : r.val = win1_3.index t (0 : Fin 2) * 256 + p.val) :
    (iblk1 V c 0 t : Vec Ideal S256x6144 .bf16) (ix2 p d) = (V c main_v14 : Mat 4096 6144) (ix2 r d) := by
  obtain ⟨e0, e1, e2, e3, e4, e5, e6, e7⟩ := idx_facts t
  unfold iblk1
  rw [View.read_apply]
  show V c main_v14 _ = V c main_v14 _
  congr 1
  funext a
  apply Fin.ext
  match a with
  | ⟨0, _⟩ => show win1_0.index t (0 : Fin 2) * 256 + 1 * p.val = r.val; rw [e0, hr]; omega
  | ⟨1, _⟩ => show win1_0.index t (1 : Fin 2) * 6144 + 1 * d.val = d.val; rw [e1]; omega

/-- The weights' block at a point is rows of the weight array: one per column of the result tile. -/
theorem wblk_apply (c : Dev nD) (t : Fin cfg1.N) (q : Fin 1024) (d : Fin 6144) (s : Fin 6144)
    (hs : s.val = win1_3.index t (1 : Fin 2) * 1024 + q.val) :
    (iblk1 V c 1 t : Vec Ideal S1024x6144 .bf16) (ix2 q d) = (V c main_v3 : Mat 6144 6144) (ix2 s d) := by
  obtain ⟨e0, e1, e2, e3, e4, e5, e6, e7⟩ := idx_facts t
  unfold iblk1
  rw [View.read_apply]
  show V c main_v3 _ = V c main_v3 _
  congr 1
  funext a
  apply Fin.ext
  match a with
  | ⟨0, _⟩ => show win1_1.index t (0 : Fin 2) * 1024 + 1 * q.val = s.val; rw [e2, hs]; omega
  | ⟨1, _⟩ => show win1_1.index t (1 : Fin 2) * 6144 + 1 * d.val = d.val; rw [e3]; omega

/-- The bias's block at a point is the one-row bias array at the columns of the result tile. -/
theorem bblk_apply (c : Dev nD) (t : Fin cfg1.N) (q : Fin 1024) (s : Fin 6144)
    (hs : s.val = win1_3.index t (1 : Fin 2) * 1024 + q.val) :
    (iblk1 V c 2 t : Vec Ideal S1x1024 .f32) (ix2 (0 : Fin 1) q) = (V c main_v15 : Mat 1 6144) (ix2 (0 : Fin 1) s) := by
  obtain ⟨e0, e1, e2, e3, e4, e5, e6, e7⟩ := idx_facts t
  unfold iblk1
  rw [View.read_apply]
  show V c main_v15 _ = V c main_v15 _
  congr 1
  funext a
  apply Fin.ext
  match a with
  | ⟨0, _⟩ => show win1_2.index t (0 : Fin 2) * 1 + 1 * 0 = 0; rw [e4]
  | ⟨1, _⟩ => show win1_2.index t (1 : Fin 2) * 1024 + 1 * q.val = s.val; rw [e5, hs]; omega

/-- What the launch leaves in the result array, as one function of the operand arrays as it found them. -/
abbrev G (c : Dev nD) : Mat 4096 6144 :=
  hiddenRow (V c main_v14 : Mat 4096 6144) (V c main_v3 : Mat 6144 6144) (V c main_v15 : Mat 1 6144)

/-- What a point writes back is its tile of that function. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S256x6144) hz, View.ld_unit_zero (S := S1024x6144) hz, View.ld_unit_zero (S := S1x1024) hz]
  funext j
  obtain ⟨p, q, rfl⟩ : ∃ (p : Fin 256) (q : Fin 1024), j = ix2 p q := ⟨j 0, j 1, eq_ix2 j⟩
  rw [View.read_apply]
  refine (payload_apply (iblk1 V c 0 t) (iblk1 V c 1 t) (iblk1 V c 2 t) p q).trans ?_
  show _ = G V c (((cfg1.win 3).blk t).view.emb (ix2 p q))
  unfold G hiddenRow affineRow
  refine congrArg leaky (congrArg₂ (· + ·) (Finset.sum_congr rfl fun d _ => congrArg₂ (· * ·) ?_ ?_) ?_)
  · exact xblk_apply V c t p d _ (by
      show win1_3.index t (0 : Fin 2) * 256 + 1 * p.val = _
      omega)
  · exact wblk_apply V c t q d _ (by
      show win1_3.index t (1 : Fin 2) * 1024 + 1 * q.val = _
      omega)
  · exact bblk_apply V c t q _ (by
      show win1_3.index t (1 : Fin 2) * 1024 + 1 * q.val = _
      omega)

/-- An entry of the result array lies in a point's tile iff each coordinate is in the tile's range on its axis. -/
theorem mem_blk (t : Fin cfg1.N) (i : S4096x6144.Idx) :
    i ∈ ((cfg1.win 3).blk t).view.set ↔ ∀ a : Fin 2, win1_3.index t a * S256x1024.size a ≤ (i a).val
      ∧ (i a).val < win1_3.index t a * S256x1024.size a + S256x1024.size a := by
  show i ∈ ((View.whole main_v16).slice (win1_3.rect t)).set ↔ _
  rw [View.set_slice_whole, Rect.mem_set_unit]
  exact Iff.rfl

/-- The tiles cover the result array: entry (r, s) is in the tile of row tile r / 256 and column tile s / 1024. -/
theorem cover (i : S4096x6144.Idx) :
    ∃ t : Fin cfg1.N, (cfg1.win 3).flush t = true ∧ i ∈ ((cfg1.win 3).blk t).view.set := by
  have hi0 : (i 0).val < 4096 := (i 0).isLt
  have hi1 : (i 1).val < 6144 := (i 1).isLt
  obtain ⟨t, ht⟩ := idx_onto ⟨(i 0).val / 256, by omega⟩ ⟨(i 1).val / 1024, by omega⟩
  have q0 : win1_3.index t (0 : Fin 2) = (i 0).val / 256 := congrFun ht 0
  have q1 : win1_3.index t (1 : Fin 2) = (i 1).val / 1024 := congrFun ht 1
  refine ⟨t, flush1_3 t, ?_⟩
  rw [mem_blk]
  intro a
  match a with
  | ⟨0, _⟩ =>
    show win1_3.index t (0 : Fin 2) * 256 ≤ (i 0).val ∧ (i 0).val < win1_3.index t (0 : Fin 2) * 256 + 256
    omega
  | ⟨1, _⟩ =>
    show win1_3.index t (1 : Fin 2) * 1024 ≤ (i 1).val ∧ (i 1).val < win1_3.index t (1 : Fin 2) * 1024 + 1024
    omega

/-- After the launch the result array is that one function of the operand arrays as the launch found them. -/
theorem result (c : Dev nD) : (dat1 V c).arrAt 3 cfg1.N = G V c :=
  (dat1 V c).arrAt_eq_of_cover 3 (G V c) (fun t _ => flushed_eq V c t) cover

end Cert.KernelIdeal.Region1

end
-- ==== Proof.Region2.lean ====
/-
  The third launch of the tiled layer kernel, as one function of its operand arrays.

  The launch walks a grid of (column tile, row tile) points.  At a point the body is handed a block of 256 rows of the
  activations (all 6144 input features), a block of 1024 rows of the multiplied-out weights (one row per output feature
  of the tile), and the tile's 1024 bias entries as one row; it stores the 256 × 1024 tile of the result: entry (p, q)
  is the sum over the input features d of  activations[p, d] · weights[q, d],  plus bias[q], through the leaky
  rectifier.  The row tile moves with the activations and the column tile with the weights and the bias, so the
  tile written at a point is the same function of the WHOLE operand arrays, read at the tile's place in the result;
  and the tiles of the 6 × 16 grid cover the result array.  So after the launch the result array is that function
  of the three operand arrays as the launch found them.
-/
import proofs.«142621_j62912680952394_2_alg».proof.Proof.Gen.KernelIdeal.Frame
import proofs.«142621_j62912680952394_2_alg».proof.Proof.Layer
import proofs.«142621_j62912680952394_2_alg».proof.Proof.LibMatmulLastAxes
import Idealize.ShloMosaic.Lib.Pipeline.Value

set_option maxRecDepth 16384

open scoped BigOperators

noncomputable section

namespace Cert.KernelIdeal.Region2

open Cert.KernelIdeal Cert.KernelIdeal.Gen Idealize.ShloMosaic Idealize.ShloMosaic.TcCoe Idealize.ShloMosaic.ValueIdx Cert.Mlp
open Cert.LibMatmulLastAxes
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The value the body stores, at an entry of the tile. -/
theorem payload_apply (x0 : Vec Ideal S256x6144 .bf16) (x1 : Vec Ideal S1024x6144 .bf16) (x2 : Vec Ideal S1x1024 .f32)
    (p : Fin 256) (q : Fin 1024) :
    k2_pay1 x0 x1 x2 (ix2 p q)
      = leaky ((∑ d : Fin 6144, x0 (ix2 p d) * x1 (ix2 q d)) + x2 (ix2 (0 : Fin 1) q)) := by
  have h : k2_pay1 x0 x1 x2 (ix2 p q)
      = leaky (FloatOps.matmul (F := Ideal) (φ₁ := .bf16) (φ₂ := .bf16) (DotDims.transposedRhs 256 6144 1024) none
            (shapeCast S256x6144 x0 shapeCasts_S256x6144_S256x6144 : FVec Ideal S256x6144 .bf16)
            (shapeCast S1024x6144 x1 shapeCasts_S1024x6144_S1024x6144 : FVec Ideal S1024x6144 .bf16)
            (constant (F := Ideal) S256x1024 .f32 0x00000000#32) (ix2 p q)
          + (broadcastTo S256x1024 (shapeCast S1x1024 x2 shapeCasts_S1x1024_S1x1024 : FVec Ideal S1x1024 .f32) broadcasts_S1x1024_S256x1024 : FVec Ideal S256x1024 .f32) (ix2 p q)) := rfl
  rw [h, shapeCast_self, shapeCast_self, shapeCast_self, matmul_lastAxes_zero_apply, broadcastTo_1b_ab_apply]

/-- Where the windows sit at a point: the activations' block moves with the result tile's rows, the weights' and the
    bias's with its columns, and the other block coordinate of each stays at zero (decided over the grid's points). -/
theorem idx_facts : ∀ t : Fin cfg2.N, win2_0.index t (0 : Fin 2) = win2_3.index t (0 : Fin 2)
    ∧ win2_0.index t (1 : Fin 2) = 0
    ∧ win2_1.index t (0 : Fin 2) = win2_3.index t (1 : Fin 2)
    ∧ win2_1.index t (1 : Fin 2) = 0
    ∧ win2_2.index t (0 : Fin 2) = 0
    ∧ win2_2.index t (1 : Fin 2) = win2_3.index t (1 : Fin 2)
    ∧ win2_3.index t (0 : Fin 2) ≤ 15 ∧ win2_3.index t (1 : Fin 2) ≤ 5 :=
  (by decide +kernel : ∀ t : Fin grid2.N, _)

/-- Every tile of the result is some point's. -/
theorem idx_onto : ∀ (q0 : Fin 16) (q1 : Fin 6), ∃ t : Fin cfg2.N, win2_3.index t = ![q0.val, q1.val] :=
  (by decide +kernel : ∀ (q0 : Fin 16) (q1 : Fin 6), ∃ t : Fin grid2.N, win2_3.index t = ![q0.val, q1.val])

/-- The activations' block at a point is rows of the activations array: those of the result tile. -/
theorem xblk_apply (c : Dev nD) (t : Fin cfg2.N) (p : Fin 256) (d : Fin 6144) (r : Fin 4096)
    (hr : r.val = win2_3.index t (0 : Fin 2) * 256 + p.val) :
    (iblk2 V c 0 t : Vec Ideal S256x6144 .bf16) (ix2 p d) = (V c main_v16 : Mat 4096 6144) (ix2 r d) := by
  obtain ⟨e0, e1, e2, e3, e4, e5, e6, e7⟩ := idx_facts t
  unfold iblk2
  rw [View.read_apply]
  show V c main_v16 _ = V c main_v16 _
  congr 1
  funext a
  apply Fin.ext
  match a with
  | ⟨0, _⟩ => show win2_0.index t (0 : Fin 2) * 256 + 1 * p.val = r.val; rw [e0, hr]; omega
  | ⟨1, _⟩ => show win2_0.index t (1 : Fin 2) * 6144 + 1 * d.val = d.val; rw [e1]; omega

/-- The weights' block at a point is rows of the weight array: one per column of the result tile. -/
theorem wblk_apply (c : Dev nD) (t : Fin cfg2.N) (q : Fin 1024) (d : Fin 6144) (s : Fin 6144)
    (hs : s.val = win2_3.index t (1 : Fin 2) * 1024 + q.val) :
    (iblk2 V c 1 t : Vec Ideal S1024x6144 .bf16) (ix2 q d) = (V c main_v5 : Mat 6144 6144) (ix2 s d) := by
  obtain ⟨e0, e1, e2, e3, e4, e5, e6, e7⟩ := idx_facts t
  unfold iblk2
  rw [View.read_apply]
  show V c main_v5 _ = V c main_v5 _
  congr 1
  funext a
  apply Fin.ext
  match a with
  | ⟨0, _⟩ => show win2_1.index t (0 : Fin 2) * 1024 + 1 * q.val = s.val; rw [e2, hs]; omega
  | ⟨1, _⟩ => show win2_1.index t (1 : Fin 2) * 6144 + 1 * d.val = d.val; rw [e3]; omega

/-- The bias's block at a point is the one-row bias array at the columns of the result tile. -/
theorem bblk_apply (c : Dev nD) (t : Fin cfg2.N) (q : Fin 1024) (s : Fin 6144)
    (hs : s.val = win2_3.index t (1 : Fin 2) * 1024 + q.val) :
    (iblk2 V c 2 t : Vec Ideal S1x1024 .f32) (ix2 (0 : Fin 1) q) = (V c main_v17 : Mat 1 6144) (ix2 (0 : Fin 1) s) := by
  obtain ⟨e0, e1, e2, e3, e4, e5, e6, e7⟩ := idx_facts t
  unfold iblk2
  rw [View.read_apply]
  show V c main_v17 _ = V c main_v17 _
  congr 1
  funext a
  apply Fin.ext
  match a with
  | ⟨0, _⟩ => show win2_2.index t (0 : Fin 2) * 1 + 1 * 0 = 0; rw [e4]
  | ⟨1, _⟩ => show win2_2.index t (1 : Fin 2) * 1024 + 1 * q.val = s.val; rw [e5, hs]; omega

/-- What the launch leaves in the result array, as one function of the operand arrays as it found them. -/
abbrev G (c : Dev nD) : Mat 4096 6144 :=
  hiddenRow (V c main_v16 : Mat 4096 6144) (V c main_v5 : Mat 6144 6144) (V c main_v17 : Mat 1 6144)

/-- What a point writes back is its tile of that function. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S256x6144) hz, View.ld_unit_zero (S := S1024x6144) hz, View.ld_unit_zero (S := S1x1024) hz]
  funext j
  obtain ⟨p, q, rfl⟩ : ∃ (p : Fin 256) (q : Fin 1024), j = ix2 p q := ⟨j 0, j 1, eq_ix2 j⟩
  rw [View.read_apply]
  refine (payload_apply (iblk2 V c 0 t) (iblk2 V c 1 t) (iblk2 V c 2 t) p q).trans ?_
  show _ = G V c (((cfg2.win 3).blk t).view.emb (ix2 p q))
  unfold G hiddenRow affineRow
  refine congrArg leaky (congrArg₂ (· + ·) (Finset.sum_congr rfl fun d _ => congrArg₂ (· * ·) ?_ ?_) ?_)
  · exact xblk_apply V c t p d _ (by
      show win2_3.index t (0 : Fin 2) * 256 + 1 * p.val = _
      omega)
  · exact wblk_apply V c t q d _ (by
      show win2_3.index t (1 : Fin 2) * 1024 + 1 * q.val = _
      omega)
  · exact bblk_apply V c t q _ (by
      show win2_3.index t (1 : Fin 2) * 1024 + 1 * q.val = _
      omega)

/-- An entry of the result array lies in a point's tile iff each coordinate is in the tile's range on its axis. -/
theorem mem_blk (t : Fin cfg2.N) (i : S4096x6144.Idx) :
    i ∈ ((cfg2.win 3).blk t).view.set ↔ ∀ a : Fin 2, win2_3.index t a * S256x1024.size a ≤ (i a).val
      ∧ (i a).val < win2_3.index t a * S256x1024.size a + S256x1024.size a := by
  show i ∈ ((View.whole main_v18).slice (win2_3.rect t)).set ↔ _
  rw [View.set_slice_whole, Rect.mem_set_unit]
  exact Iff.rfl

/-- The tiles cover the result array: entry (r, s) is in the tile of row tile r / 256 and column tile s / 1024. -/
theorem cover (i : S4096x6144.Idx) :
    ∃ t : Fin cfg2.N, (cfg2.win 3).flush t = true ∧ i ∈ ((cfg2.win 3).blk t).view.set := by
  have hi0 : (i 0).val < 4096 := (i 0).isLt
  have hi1 : (i 1).val < 6144 := (i 1).isLt
  obtain ⟨t, ht⟩ := idx_onto ⟨(i 0).val / 256, by omega⟩ ⟨(i 1).val / 1024, by omega⟩
  have q0 : win2_3.index t (0 : Fin 2) = (i 0).val / 256 := congrFun ht 0
  have q1 : win2_3.index t (1 : Fin 2) = (i 1).val / 1024 := congrFun ht 1
  refine ⟨t, flush2_3 t, ?_⟩
  rw [mem_blk]
  intro a
  match a with
  | ⟨0, _⟩ =>
    show win2_3.index t (0 : Fin 2) * 256 ≤ (i 0).val ∧ (i 0).val < win2_3.index t (0 : Fin 2) * 256 + 256
    omega
  | ⟨1, _⟩ =>
    show win2_3.index t (1 : Fin 2) * 1024 ≤ (i 1).val ∧ (i 1).val < win2_3.index t (1 : Fin 2) * 1024 + 1024
    omega

/-- After the launch the result array is that one function of the operand arrays as the launch found them. -/
theorem result (c : Dev nD) : (dat2 V c).arrAt 3 cfg2.N = G V c :=
  (dat2 V c).arrAt_eq_of_cover 3 (G V c) (fun t _ => flushed_eq V c t) cover

end Cert.KernelIdeal.Region2

end
-- ==== Proof.Region3.lean ====
/-
  The fourth launch of the tiled layer kernel, as one function of its operand arrays.

  The launch walks a grid of (column tile, row tile) points.  At a point the body is handed a block of 256 rows of the
  activations (all 6144 input features), a block of 1024 rows of the multiplied-out weights (one row per output feature
  of the tile), and the tile's 1024 bias entries as one row; it stores the 256 × 1024 tile of the result: entry (p, q)
  is the sum over the input features d of  activations[p, d] · weights[q, d],  plus bias[q], through the leaky
  rectifier.  The row tile moves with the activations and the column tile with the weights and the bias, so the
  tile written at a point is the same function of the WHOLE operand arrays, read at the tile's place in the result;
  and the tiles of the 6 × 16 grid cover the result array.  So after the launch the result array is that function
  of the three operand arrays as the launch found them.
-/
import proofs.«142621_j62912680952394_2_alg».proof.Proof.Gen.KernelIdeal.Frame
import proofs.«142621_j62912680952394_2_alg».proof.Proof.Layer
import proofs.«142621_j62912680952394_2_alg».proof.Proof.LibMatmulLastAxes
import Idealize.ShloMosaic.Lib.Pipeline.Value

set_option maxRecDepth 16384

open scoped BigOperators

noncomputable section

namespace Cert.KernelIdeal.Region3

open Cert.KernelIdeal Cert.KernelIdeal.Gen Idealize.ShloMosaic Idealize.ShloMosaic.TcCoe Idealize.ShloMosaic.ValueIdx Cert.Mlp
open Cert.LibMatmulLastAxes
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The value the body stores, at an entry of the tile. -/
theorem payload_apply (x0 : Vec Ideal S256x6144 .bf16) (x1 : Vec Ideal S1024x6144 .bf16) (x2 : Vec Ideal S1x1024 .f32)
    (p : Fin 256) (q : Fin 1024) :
    k3_pay1 x0 x1 x2 (ix2 p q)
      = leaky ((∑ d : Fin 6144, x0 (ix2 p d) * x1 (ix2 q d)) + x2 (ix2 (0 : Fin 1) q)) := by
  have h : k3_pay1 x0 x1 x2 (ix2 p q)
      = leaky (FloatOps.matmul (F := Ideal) (φ₁ := .bf16) (φ₂ := .bf16) (DotDims.transposedRhs 256 6144 1024) none
            (shapeCast S256x6144 x0 shapeCasts_S256x6144_S256x6144 : FVec Ideal S256x6144 .bf16)
            (shapeCast S1024x6144 x1 shapeCasts_S1024x6144_S1024x6144 : FVec Ideal S1024x6144 .bf16)
            (constant (F := Ideal) S256x1024 .f32 0x00000000#32) (ix2 p q)
          + (broadcastTo S256x1024 (shapeCast S1x1024 x2 shapeCasts_S1x1024_S1x1024 : FVec Ideal S1x1024 .f32) broadcasts_S1x1024_S256x1024 : FVec Ideal S256x1024 .f32) (ix2 p q)) := rfl
  rw [h, shapeCast_self, shapeCast_self, shapeCast_self, matmul_lastAxes_zero_apply, broadcastTo_1b_ab_apply]

/-- Where the windows sit at a point: the activations' block moves with the result tile's rows, the weights' and the
    bias's with its columns, and the other block coordinate of each stays at zero (decided over the grid's points). -/
theorem idx_facts : ∀ t : Fin cfg3.N, win3_0.index t (0 : Fin 2) = win3_3.index t (0 : Fin 2)
    ∧ win3_0.index t (1 : Fin 2) = 0
    ∧ win3_1.index t (0 : Fin 2) = win3_3.index t (1 : Fin 2)
    ∧ win3_1.index t (1 : Fin 2) = 0
    ∧ win3_2.index t (0 : Fin 2) = 0
    ∧ win3_2.index t (1 : Fin 2) = win3_3.index t (1 : Fin 2)
    ∧ win3_3.index t (0 : Fin 2) ≤ 15 ∧ win3_3.index t (1 : Fin 2) ≤ 5 :=
  (by decide +kernel : ∀ t : Fin grid3.N, _)

/-- Every tile of the result is some point's. -/
theorem idx_onto : ∀ (q0 : Fin 16) (q1 : Fin 6), ∃ t : Fin cfg3.N, win3_3.index t = ![q0.val, q1.val] :=
  (by decide +kernel : ∀ (q0 : Fin 16) (q1 : Fin 6), ∃ t : Fin grid3.N, win3_3.index t = ![q0.val, q1.val])

/-- The activations' block at a point is rows of the activations array: those of the result tile. -/
theorem xblk_apply (c : Dev nD) (t : Fin cfg3.N) (p : Fin 256) (d : Fin 6144) (r : Fin 4096)
    (hr : r.val = win3_3.index t (0 : Fin 2) * 256 + p.val) :
    (iblk3 V c 0 t : Vec Ideal S256x6144 .bf16) (ix2 p d) = (V c main_v18 : Mat 4096 6144) (ix2 r d) := by
  obtain ⟨e0, e1, e2, e3, e4, e5, e6, e7⟩ := idx_facts t
  unfold iblk3
  rw [View.read_apply]
  show V c main_v18 _ = V c main_v18 _
  congr 1
  funext a
  apply Fin.ext
  match a with
  | ⟨0, _⟩ => show win3_0.index t (0 : Fin 2) * 256 + 1 * p.val = r.val; rw [e0, hr]; omega
  | ⟨1, _⟩ => show win3_0.index t (1 : Fin 2) * 6144 + 1 * d.val = d.val; rw [e1]; omega

/-- The weights' block at a point is rows of the weight array: one per column of the result tile. -/
theorem wblk_apply (c : Dev nD) (t : Fin cfg3.N) (q : Fin 1024) (d : Fin 6144) (s : Fin 6144)
    (hs : s.val = win3_3.index t (1 : Fin 2) * 1024 + q.val) :
    (iblk3 V c 1 t : Vec Ideal S1024x6144 .bf16) (ix2 q d) = (V c main_v7 : Mat 6144 6144) (ix2 s d) := by
  obtain ⟨e0, e1, e2, e3, e4, e5, e6, e7⟩ := idx_facts t
  unfold iblk3
  rw [View.read_apply]
  show V c main_v7 _ = V c main_v7 _
  congr 1
  funext a
  apply Fin.ext
  match a with
  | ⟨0, _⟩ => show win3_1.index t (0 : Fin 2) * 1024 + 1 * q.val = s.val; rw [e2, hs]; omega
  | ⟨1, _⟩ => show win3_1.index t (1 : Fin 2) * 6144 + 1 * d.val = d.val; rw [e3]; omega

/-- The bias's block at a point is the one-row bias array at the columns of the result tile. -/
theorem bblk_apply (c : Dev nD) (t : Fin cfg3.N) (q : Fin 1024) (s : Fin 6144)
    (hs : s.val = win3_3.index t (1 : Fin 2) * 1024 + q.val) :
    (iblk3 V c 2 t : Vec Ideal S1x1024 .f32) (ix2 (0 : Fin 1) q) = (V c main_v19 : Mat 1 6144) (ix2 (0 : Fin 1) s) := by
  obtain ⟨e0, e1, e2, e3, e4, e5, e6, e7⟩ := idx_facts t
  unfold iblk3
  rw [View.read_apply]
  show V c main_v19 _ = V c main_v19 _
  congr 1
  funext a
  apply Fin.ext
  match a with
  | ⟨0, _⟩ => show win3_2.index t (0 : Fin 2) * 1 + 1 * 0 = 0; rw [e4]
  | ⟨1, _⟩ => show win3_2.index t (1 : Fin 2) * 1024 + 1 * q.val = s.val; rw [e5, hs]; omega

/-- What the launch leaves in the result array, as one function of the operand arrays as it found them. -/
abbrev G (c : Dev nD) : Mat 4096 6144 :=
  hiddenRow (V c main_v18 : Mat 4096 6144) (V c main_v7 : Mat 6144 6144) (V c main_v19 : Mat 1 6144)

/-- What a point writes back is its tile of that function. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S256x6144) hz, View.ld_unit_zero (S := S1024x6144) hz, View.ld_unit_zero (S := S1x1024) hz]
  funext j
  obtain ⟨p, q, rfl⟩ : ∃ (p : Fin 256) (q : Fin 1024), j = ix2 p q := ⟨j 0, j 1, eq_ix2 j⟩
  rw [View.read_apply]
  refine (payload_apply (iblk3 V c 0 t) (iblk3 V c 1 t) (iblk3 V c 2 t) p q).trans ?_
  show _ = G V c (((cfg3.win 3).blk t).view.emb (ix2 p q))
  unfold G hiddenRow affineRow
  refine congrArg leaky (congrArg₂ (· + ·) (Finset.sum_congr rfl fun d _ => congrArg₂ (· * ·) ?_ ?_) ?_)
  · exact xblk_apply V c t p d _ (by
      show win3_3.index t (0 : Fin 2) * 256 + 1 * p.val = _
      omega)
  · exact wblk_apply V c t q d _ (by
      show win3_3.index t (1 : Fin 2) * 1024 + 1 * q.val = _
      omega)
  · exact bblk_apply V c t q _ (by
      show win3_3.index t (1 : Fin 2) * 1024 + 1 * q.val = _
      omega)

/-- An entry of the result array lies in a point's tile iff each coordinate is in the tile's range on its axis. -/
theorem mem_blk (t : Fin cfg3.N) (i : S4096x6144.Idx) :
    i ∈ ((cfg3.win 3).blk t).view.set ↔ ∀ a : Fin 2, win3_3.index t a * S256x1024.size a ≤ (i a).val
      ∧ (i a).val < win3_3.index t a * S256x1024.size a + S256x1024.size a := by
  show i ∈ ((View.whole main_v20).slice (win3_3.rect t)).set ↔ _
  rw [View.set_slice_whole, Rect.mem_set_unit]
  exact Iff.rfl

/-- The tiles cover the result array: entry (r, s) is in the tile of row tile r / 256 and column tile s / 1024. -/
theorem cover (i : S4096x6144.Idx) :
    ∃ t : Fin cfg3.N, (cfg3.win 3).flush t = true ∧ i ∈ ((cfg3.win 3).blk t).view.set := by
  have hi0 : (i 0).val < 4096 := (i 0).isLt
  have hi1 : (i 1).val < 6144 := (i 1).isLt
  obtain ⟨t, ht⟩ := idx_onto ⟨(i 0).val / 256, by omega⟩ ⟨(i 1).val / 1024, by omega⟩
  have q0 : win3_3.index t (0 : Fin 2) = (i 0).val / 256 := congrFun ht 0
  have q1 : win3_3.index t (1 : Fin 2) = (i 1).val / 1024 := congrFun ht 1
  refine ⟨t, flush3_3 t, ?_⟩
  rw [mem_blk]
  intro a
  match a with
  | ⟨0, _⟩ =>
    show win3_3.index t (0 : Fin 2) * 256 ≤ (i 0).val ∧ (i 0).val < win3_3.index t (0 : Fin 2) * 256 + 256
    omega
  | ⟨1, _⟩ =>
    show win3_3.index t (1 : Fin 2) * 1024 ≤ (i 1).val ∧ (i 1).val < win3_3.index t (1 : Fin 2) * 1024 + 1024
    omega

/-- After the launch the result array is that one function of the operand arrays as the launch found them. -/
theorem result (c : Dev nD) : (dat3 V c).arrAt 3 cfg3.N = G V c :=
  (dat3 V c).arrAt_eq_of_cover 3 (G V c) (fun t _ => flushed_eq V c t) cover

end Cert.KernelIdeal.Region3

end
-- ==== Proof.Region4.lean ====
/-
  The fifth and last launch of the tiled layer kernel, as one function of its operand arrays.

  The launch walks a grid of (column tile, row tile) points.  At a point the body is handed a block of 256 rows of the
  activations (all 6144 input features), a block of 1024 rows of the multiplied-out weights (one row per output feature
  of the tile), and the tile's 1024 bias entries as one row; it stores the 256 × 1024 tile of the result: entry (p, q)
  is the sum over the input features d of  activations[p, d] · weights[q, d],  plus bias[q].  The row tile moves with the activations and the column tile with the weights and the bias, so the
  tile written at a point is the same function of the WHOLE operand arrays, read at the tile's place in the result;
  and the tiles of the 2 × 16 grid cover the result array.  So after the launch the result array is that function
  of the three operand arrays as the launch found them.
-/
import proofs.«142621_j62912680952394_2_alg».proof.Proof.Gen.KernelIdeal.Frame
import proofs.«142621_j62912680952394_2_alg».proof.Proof.Layer
import proofs.«142621_j62912680952394_2_alg».proof.Proof.LibMatmulLastAxes
import Idealize.ShloMosaic.Lib.Pipeline.Value

set_option maxRecDepth 16384

open scoped BigOperators

noncomputable section

namespace Cert.KernelIdeal.Region4

open Cert.KernelIdeal Cert.KernelIdeal.Gen Idealize.ShloMosaic Idealize.ShloMosaic.TcCoe Idealize.ShloMosaic.ValueIdx Cert.Mlp
open Cert.LibMatmulLastAxes
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The value the body stores, at an entry of the tile. -/
theorem payload_apply (x0 : Vec Ideal S256x6144 .bf16) (x1 : Vec Ideal S1024x6144 .bf16) (x2 : Vec Ideal S1x1024 .f32)
    (p : Fin 256) (q : Fin 1024) :
    k4_pay1 x0 x1 x2 (ix2 p q)
      =  ((∑ d : Fin 6144, x0 (ix2 p d) * x1 (ix2 q d)) + x2 (ix2 (0 : Fin 1) q)) := by
  have h : k4_pay1 x0 x1 x2 (ix2 p q)
      =  (FloatOps.matmul (F := Ideal) (φ₁ := .bf16) (φ₂ := .bf16) (DotDims.transposedRhs 256 6144 1024) none
            (shapeCast S256x6144 x0 shapeCasts_S256x6144_S256x6144 : FVec Ideal S256x6144 .bf16)
            (shapeCast S1024x6144 x1 shapeCasts_S1024x6144_S1024x6144 : FVec Ideal S1024x6144 .bf16)
            (constant (F := Ideal) S256x1024 .f32 0x00000000#32) (ix2 p q)
          + (broadcastTo S256x1024 (shapeCast S1x1024 x2 shapeCasts_S1x1024_S1x1024 : FVec Ideal S1x1024 .f32) broadcasts_S1x1024_S256x1024 : FVec Ideal S256x1024 .f32) (ix2 p q)) := rfl
  rw [h, shapeCast_self, shapeCast_self, shapeCast_self, matmul_lastAxes_zero_apply, broadcastTo_1b_ab_apply]

/-- Where the windows sit at a point: the activations' block moves with the result tile's rows, the weights' and the
    bias's with its columns, and the other block coordinate of each stays at zero (decided over the grid's points). -/
theorem idx_facts : ∀ t : Fin cfg4.N, win4_0.index t (0 : Fin 2) = win4_3.index t (0 : Fin 2)
    ∧ win4_0.index t (1 : Fin 2) = 0
    ∧ win4_1.index t (0 : Fin 2) = win4_3.index t (1 : Fin 2)
    ∧ win4_1.index t (1 : Fin 2) = 0
    ∧ win4_2.index t (0 : Fin 2) = 0
    ∧ win4_2.index t (1 : Fin 2) = win4_3.index t (1 : Fin 2)
    ∧ win4_3.index t (0 : Fin 2) ≤ 15 ∧ win4_3.index t (1 : Fin 2) ≤ 1 :=
  (by decide +kernel : ∀ t : Fin grid4.N, _)

/-- Every tile of the result is some point's. -/
theorem idx_onto : ∀ (q0 : Fin 16) (q1 : Fin 2), ∃ t : Fin cfg4.N, win4_3.index t = ![q0.val, q1.val] :=
  (by decide +kernel : ∀ (q0 : Fin 16) (q1 : Fin 2), ∃ t : Fin grid4.N, win4_3.index t = ![q0.val, q1.val])

/-- The activations' block at a point is rows of the activations array: those of the result tile. -/
theorem xblk_apply (c : Dev nD) (t : Fin cfg4.N) (p : Fin 256) (d : Fin 6144) (r : Fin 4096)
    (hr : r.val = win4_3.index t (0 : Fin 2) * 256 + p.val) :
    (iblk4 V c 0 t : Vec Ideal S256x6144 .bf16) (ix2 p d) = (V c main_v20 : Mat 4096 6144) (ix2 r d) := by
  obtain ⟨e0, e1, e2, e3, e4, e5, e6, e7⟩ := idx_facts t
  unfold iblk4
  rw [View.read_apply]
  show V c main_v20 _ = V c main_v20 _
  congr 1
  funext a
  apply Fin.ext
  match a with
  | ⟨0, _⟩ => show win4_0.index t (0 : Fin 2) * 256 + 1 * p.val = r.val; rw [e0, hr]; omega
  | ⟨1, _⟩ => show win4_0.index t (1 : Fin 2) * 6144 + 1 * d.val = d.val; rw [e1]; omega

/-- The weights' block at a point is rows of the weight array: one per column of the result tile. -/
theorem wblk_apply (c : Dev nD) (t : Fin cfg4.N) (q : Fin 1024) (d : Fin 6144) (s : Fin 2048)
    (hs : s.val = win4_3.index t (1 : Fin 2) * 1024 + q.val) :
    (iblk4 V c 1 t : Vec Ideal S1024x6144 .bf16) (ix2 q d) = (V c main_v10 : Mat 2048 6144) (ix2 s d) := by
  obtain ⟨e0, e1, e2, e3, e4, e5, e6, e7⟩ := idx_facts t
  unfold iblk4
  rw [View.read_apply]
  show V c main_v10 _ = V c main_v10 _
  congr 1
  funext a
  apply Fin.ext
  match a with
  | ⟨0, _⟩ => show win4_1.index t (0 : Fin 2) * 1024 + 1 * q.val = s.val; rw [e2, hs]; omega
  | ⟨1, _⟩ => show win4_1.index t (1 : Fin 2) * 6144 + 1 * d.val = d.val; rw [e3]; omega

/-- The bias's block at a point is the one-row bias array at the columns of the result tile. -/
theorem bblk_apply (c : Dev nD) (t : Fin cfg4.N) (q : Fin 1024) (s : Fin 2048)
    (hs : s.val = win4_3.index t (1 : Fin 2) * 1024 + q.val) :
    (iblk4 V c 2 t : Vec Ideal S1x1024 .f32) (ix2 (0 : Fin 1) q) = (V c main_v21 : Mat 1 2048) (ix2 (0 : Fin 1) s) := by
  obtain ⟨e0, e1, e2, e3, e4, e5, e6, e7⟩ := idx_facts t
  unfold iblk4
  rw [View.read_apply]
  show V c main_v21 _ = V c main_v21 _
  congr 1
  funext a
  apply Fin.ext
  match a with
  | ⟨0, _⟩ => show win4_2.index t (0 : Fin 2) * 1 + 1 * 0 = 0; rw [e4]
  | ⟨1, _⟩ => show win4_2.index t (1 : Fin 2) * 1024 + 1 * q.val = s.val; rw [e5, hs]; omega

/-- What the launch leaves in the result array, as one function of the operand arrays as it found them. -/
abbrev G (c : Dev nD) : Mat 4096 2048 :=
  affineRow (V c main_v20 : Mat 4096 6144) (V c main_v10 : Mat 2048 6144) (V c main_v21 : Mat 1 2048)

/-- What a point writes back is its tile of that function. -/
theorem flushed_eq (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S256x6144) hz, View.ld_unit_zero (S := S1024x6144) hz, View.ld_unit_zero (S := S1x1024) hz]
  funext j
  obtain ⟨p, q, rfl⟩ : ∃ (p : Fin 256) (q : Fin 1024), j = ix2 p q := ⟨j 0, j 1, eq_ix2 j⟩
  rw [View.read_apply]
  refine (payload_apply (iblk4 V c 0 t) (iblk4 V c 1 t) (iblk4 V c 2 t) p q).trans ?_
  show _ = G V c (((cfg4.win 3).blk t).view.emb (ix2 p q))
  unfold G affineRow
  refine (congrArg₂ (· + ·) (Finset.sum_congr rfl fun d _ => congrArg₂ (· * ·) ?_ ?_) ?_)
  · exact xblk_apply V c t p d _ (by
      show win4_3.index t (0 : Fin 2) * 256 + 1 * p.val = _
      omega)
  · exact wblk_apply V c t q d _ (by
      show win4_3.index t (1 : Fin 2) * 1024 + 1 * q.val = _
      omega)
  · exact bblk_apply V c t q _ (by
      show win4_3.index t (1 : Fin 2) * 1024 + 1 * q.val = _
      omega)

/-- An entry of the result array lies in a point's tile iff each coordinate is in the tile's range on its axis. -/
theorem mem_blk (t : Fin cfg4.N) (i : S4096x2048.Idx) :
    i ∈ ((cfg4.win 3).blk t).view.set ↔ ∀ a : Fin 2, win4_3.index t a * S256x1024.size a ≤ (i a).val
      ∧ (i a).val < win4_3.index t a * S256x1024.size a + S256x1024.size a := by
  show i ∈ ((View.whole main_v22).slice (win4_3.rect t)).set ↔ _
  rw [View.set_slice_whole, Rect.mem_set_unit]
  exact Iff.rfl

/-- The tiles cover the result array: entry (r, s) is in the tile of row tile r / 256 and column tile s / 1024. -/
theorem cover (i : S4096x2048.Idx) :
    ∃ t : Fin cfg4.N, (cfg4.win 3).flush t = true ∧ i ∈ ((cfg4.win 3).blk t).view.set := by
  have hi0 : (i 0).val < 4096 := (i 0).isLt
  have hi1 : (i 1).val < 2048 := (i 1).isLt
  obtain ⟨t, ht⟩ := idx_onto ⟨(i 0).val / 256, by omega⟩ ⟨(i 1).val / 1024, by omega⟩
  have q0 : win4_3.index t (0 : Fin 2) = (i 0).val / 256 := congrFun ht 0
  have q1 : win4_3.index t (1 : Fin 2) = (i 1).val / 1024 := congrFun ht 1
  refine ⟨t, flush4_3 t, ?_⟩
  rw [mem_blk]
  intro a
  match a with
  | ⟨0, _⟩ =>
    show win4_3.index t (0 : Fin 2) * 256 ≤ (i 0).val ∧ (i 0).val < win4_3.index t (0 : Fin 2) * 256 + 256
    omega
  | ⟨1, _⟩ =>
    show win4_3.index t (1 : Fin 2) * 1024 ≤ (i 1).val ∧ (i 1).val < win4_3.index t (1 : Fin 2) * 1024 + 1024
    omega

/-- After the launch the result array is that one function of the operand arrays as the launch found them. -/
theorem result (c : Dev nD) : (dat4 V c).arrAt 3 cfg4.N = G V c :=
  (dat4 V c).arrAt_eq_of_cover 3 (G V c) (fun t _ => flushed_eq V c t) cover

end Cert.KernelIdeal.Region4

end
-- ==== Proof.LibRegionAsOp.lean ====
/-
  A pipelined region seen from outside is one operation on the core's buffers.

  When a region returns, the core's buffer contents are the entry contents with each of the region's arrays
  replaced by what the pipeline leaves in it (`Pipeline.withArrays`).  If every array but one ends as it was
  entered (the input windows) and the remaining one ends at the value some operation `op` — one that writes
  exactly that array's buffer — computes from the entry contents, then the region's effect on the whole
  valuation IS `op.result`.  A program that alternates host operations and such regions is then, as far as
  buffer contents go, a straight line of operations, and the contents after it are `StableHlo.after` of that
  line.  Also: the fold over a concatenation of two lines is the fold over the second after the first.
-/
import Idealize.ShloMosaic.Lib.Pipeline.FrameSuffix
import Idealize.ShloMosaic.Lib.StableHlo.Run

noncomputable section

namespace Cert.Lib

open Idealize.ShloMosaic Idealize.ShloMosaic.TcCoe Idealize.ShloMosaic.Pipeline

variable {nD : Nat} {τ : Topo} {sig : RefSig} {Val : EltTy → Type}

/-- The region's exit contents are one operation's result of its entry contents: the operation writes exactly
    the buffer of array `wo` (`hw`), the pipeline leaves in that array the operation's value (`hout`), and
    every other array of the region ends holding its entry contents (`hin`). -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (op : HloOp τ sig Val) (wo : Fin W)
    (hw : op.writes = {Proc.devRef .tc (arrRef win wo)})
    (hout : A wo = op.result V (Proc.devRef .tc (arrRef win wo)))
    (hin : ∀ w, w ≠ wo → A w = V (Proc.devRef .tc (arrRef win w))) :
    withArrays win c V A = op.result V := by
  funext b
  by_cases h : ∃ w, Proc.devRef (τ := τ) .tc (arrRef win w) = b
  · obtain ⟨w, rfl⟩ := h
    rw [withArrays_arr win hinj]
    by_cases hwo : w = wo
    · subst hwo; exact hout
    · rw [hin w hwo, op.result_of_not_mem V]
      rw [hw, Finset.mem_singleton]
      exact fun e => hwo (hinj (Proc.devRef_injective _ e))
  · have hb : b ∉ op.writes := by
      rw [hw, Finset.mem_singleton]
      exact fun e => h ⟨wo, e.symm⟩
    rw [op.result_of_not_mem V hb]
    unfold withArrays
    rw [dif_neg h]

/-- The contents after two lines run one after the other. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- One operation as a line. -/
theorem after_singleton (op : HloOp τ sig Val) (V : Valuation τ sig Val) :
    StableHlo.after [op] V = op.result V := rfl

end Cert.Lib

end
-- ==== Proof.KernelNet.lean ====
/-
  The tiled program's composed operations are the network.

  Around its five launches the tiled program multiplies each weight matrix by its mask once, hands each bias to its
  launch as a one-row matrix, pads the last layer's masked weights and bias from 2016 to 2048 output features, and
  cuts the first 2016 columns out of the last launch's result.  Entry by entry:  the one-row bias at column c is the
  bias at c;  the product of a weight entry and its mask entry is what the network's layer multiplies the
  activation by;  a column c < 2016 of the padded last layer reads rows c of the unpadded weights and entry c of the
  unpadded bias (the padding rows feed only the columns that are cut away, so the padding value is never read).  Hence
  the launches' layers, composed, are the network of the sixteen arguments.
-/
import Idealize.ShloMosaic.Lib.KernelVsHost
import proofs.«142621_j62912680952394_2_alg».proof.Proof.Layer

open scoped BigOperators

noncomputable section

namespace Cert.Mlp

open Idealize.ShloMosaic Idealize.ShloMosaic.ValueIdx

/-- A hidden launch on the masked weights (multiplied out, then narrowed) and the bias as one row is the network's
    hidden layer. -/
theorem hiddenRow_masked {m k n : Nat} (X : Mat m k) (W Mk : Mat n k) (b : Vect n) (hb : FTy.bf16.bits < FTy.f32.bits)
    (hc : (⟨1, ![n]⟩ : Shape).ShapeCasts ⟨2, ![1, n]⟩) :
    hiddenRow X (truncf .bf16 (mulf (W : FVec Ideal ⟨2, ![n, k]⟩ .f32) Mk) hb : FVec Ideal ⟨2, ![n, k]⟩ .bf16)
        (fun i => shapeCast ⟨2, ![1, n]⟩ b hc i)
      = hidden X W Mk b := by
  funext i
  show leaky (_ + shapeCast ⟨2, ![1, n]⟩ b hc (ix2 (0 : Fin 1) (i 1))) = leaky (_ + b (ix1 (i 1)))
  rw [shapeCast_a_1a_apply b hc 0 (i 1)]
  rfl

/-- The last launch on the padded masked weights and the padded bias as one row, cut back to the unpadded columns, is
    the network's last layer. -/
theorem affineRow_padded {m k n np : Nat} (X : Mat m k) (W Mk : Mat n k) (b : Vect n)
    {u : Shape} (z1 z2 : u.Idx → EReal) (hu : 0 < u.numel) (hb : FTy.bf16.bits < FTy.f32.bits)
    (hp1 : (⟨2, ![n, k]⟩ : Shape).Pads ![0, 0] ![np - n, 0] ![0, 0] ⟨2, ![np, k]⟩)
    (hp2 : (⟨1, ![n]⟩ : Shape).Pads ![0] ![np - n] ![0] ⟨1, ![np]⟩)
    (hc : (⟨1, ![np]⟩ : Shape).ShapeCasts ⟨2, ![1, np]⟩)
    (hs : (⟨2, ![m, np]⟩ : Shape).Slices ![0, 0] ⟨2, ![m, n]⟩) :
    extractStridedSlice ⟨2, ![m, n]⟩ ![0, 0]
        (affineRow X
          (pad ⟨2, ![np, k]⟩ ![0, 0] ![np - n, 0] ![0, 0]
            (truncf .bf16 (mulf (W : FVec Ideal ⟨2, ![n, k]⟩ .f32) Mk) hb : FVec Ideal ⟨2, ![n, k]⟩ .bf16) z1 hp1 hu)
          (fun i => shapeCast ⟨2, ![1, np]⟩ (pad ⟨1, ![np]⟩ ![0] ![np - n] ![0] b z2 hp2 hu) hc i)) hs
      = affine X W Mk b := by
  funext i
  obtain ⟨r, c, rfl⟩ : ∃ (r : Fin m) (c : Fin n), i = ix2 r c := ⟨i 0, i 1, eq_ix2 i⟩
  have hnp : 0 + n ≤ np := hs.2 1
  have hc' : c.val < np := by have := c.isLt; omega
  refine (slice2_axis1_apply 0 _ hs r c ⟨c.val, hc'⟩ (Nat.zero_add _).symm).trans ?_
  refine (congrArg₂ (· + ·) (Finset.sum_congr rfl fun d _ => congrArg (X (ix2 r d) * ·) ?_) ?_).trans
    (affine_apply X W Mk b r c).symm
  · exact pad_apply_of_inside ![0, 0] ![np - n, 0] ![0, 0] _ z1 hp1 hu (ix2 ⟨c.val, hc'⟩ d) (ix2 c d) (fun a => by
      match a with
      | ⟨0, _⟩ => show c.val = 0 + c.val * (0 + 1); omega
      | ⟨1, _⟩ => show d.val = 0 + d.val * (0 + 1); omega)
  · exact (shapeCast_a_1a_apply _ hc 0 ⟨c.val, hc'⟩).trans
      (pad_apply_of_inside ![0] ![np - n] ![0] b z2 hp2 hu (ix1 ⟨c.val, hc'⟩) (ix1 c) (fun a => by
        match a with
        | ⟨0, _⟩ => show c.val = 0 + c.val * (0 + 1); omega))

/-- The five launches' layers on the prepared operands, cut back to the unpadded columns, are the network: four
    hidden layers by hiddenRow_masked, the last by affineRow_padded (2048 - 2016 = 32 padding rows). -/
theorem composed_eq_net (x : Mat 4096 2048) (W0 M0 : Mat 6144 2048) (b0 : Vect 6144) (W1 M1 : Mat 6144 6144) (b1 : Vect 6144)
    (W2 M2 : Mat 6144 6144) (b2 : Vect 6144) (W3 M3 : Mat 6144 6144) (b3 : Vect 6144) (Wo Mo : Mat 2016 6144) (bo : Vect 2016)
    {u : Shape} (z1 z2 : u.Idx → EReal) (hu : 0 < u.numel) (hb : FTy.bf16.bits < FTy.f32.bits)
    (hc : (⟨1, ![6144]⟩ : Shape).ShapeCasts ⟨2, ![1, 6144]⟩)
    (hp1 : (⟨2, ![2016, 6144]⟩ : Shape).Pads ![0, 0] ![32, 0] ![0, 0] ⟨2, ![2048, 6144]⟩)
    (hp2 : (⟨1, ![2016]⟩ : Shape).Pads ![0] ![32] ![0] ⟨1, ![2048]⟩)
    (hc2 : (⟨1, ![2048]⟩ : Shape).ShapeCasts ⟨2, ![1, 2048]⟩)
    (hs : (⟨2, ![4096, 2048]⟩ : Shape).Slices ![0, 0] ⟨2, ![4096, 2016]⟩) :
    extractStridedSlice ⟨2, ![4096, 2016]⟩ ![0, 0]
        (affineRow
          (hiddenRow
            (hiddenRow
              (hiddenRow
                (hiddenRow (truncf .bf16 (x : FVec Ideal ⟨2, ![4096, 2048]⟩ .f32) hb : FVec Ideal ⟨2, ![4096, 2048]⟩ .bf16)
                  (truncf .bf16 (mulf (W0 : FVec Ideal ⟨2, ![6144, 2048]⟩ .f32) M0) hb : FVec Ideal ⟨2, ![6144, 2048]⟩ .bf16)
                  (fun i => shapeCast ⟨2, ![1, 6144]⟩ b0 hc i))
                (truncf .bf16 (mulf (W1 : FVec Ideal ⟨2, ![6144, 6144]⟩ .f32) M1) hb : FVec Ideal ⟨2, ![6144, 6144]⟩ .bf16)
                (fun i => shapeCast ⟨2, ![1, 6144]⟩ b1 hc i))
              (truncf .bf16 (mulf (W2 : FVec Ideal ⟨2, ![6144, 6144]⟩ .f32) M2) hb : FVec Ideal ⟨2, ![6144, 6144]⟩ .bf16)
              (fun i => shapeCast ⟨2, ![1, 6144]⟩ b2 hc i))
            (truncf .bf16 (mulf (W3 : FVec Ideal ⟨2, ![6144, 6144]⟩ .f32) M3) hb : FVec Ideal ⟨2, ![6144, 6144]⟩ .bf16)
            (fun i => shapeCast ⟨2, ![1, 6144]⟩ b3 hc i))
          (pad ⟨2, ![2048, 6144]⟩ ![0, 0] ![32, 0] ![0, 0]
            (truncf .bf16 (mulf (Wo : FVec Ideal ⟨2, ![2016, 6144]⟩ .f32) Mo) hb : FVec Ideal ⟨2, ![2016, 6144]⟩ .bf16) z1 hp1 hu)
          (fun i => shapeCast ⟨2, ![1, 2048]⟩ (pad ⟨1, ![2048]⟩ ![0] ![32] ![0] bo z2 hp2 hu) hc2 i)) hs
      = net x W0 M0 b0 W1 M1 b1 W2 M2 b2 W3 M3 b3 Wo Mo bo := by
  rw [hiddenRow_masked, hiddenRow_masked, hiddenRow_masked, hiddenRow_masked]
  exact affineRow_padded (n := 2016) (np := 2048) _ Wo Mo bo z1 z2 hu hb hp1 hp2 hc2 hs

end Cert.Mlp

end
-- ==== Proof.KernelLine.lean ====
/-
  The kernel program as one straight line of operations.

  The program alternates stretches of host operations with five launches of the tiled layer kernel.  Each launch leaves
  its three operand arrays as it found them and its result array at one function of them (the layer on multiplied-out
  weights and a one-row bias), so on the core's buffer contents it acts as ONE operation that reads three buffers and
  writes a fourth.  The contents when the program returns are then the fold of a single line of operations over the
  launch contents, and the returned array is read off that fold like any host program's.
-/
import proofs.«142621_j62912680952394_2_alg».proof.Proof.Gen.KernelIdeal.Frame
import proofs.«142621_j62912680952394_2_alg».proof.Proof.Region0
import proofs.«142621_j62912680952394_2_alg».proof.Proof.Region1
import proofs.«142621_j62912680952394_2_alg».proof.Proof.Region2
import proofs.«142621_j62912680952394_2_alg».proof.Proof.Region3
import proofs.«142621_j62912680952394_2_alg».proof.Proof.Region4
import proofs.«142621_j62912680952394_2_alg».proof.Proof.LibRegionAsOp
import proofs.«142621_j62912680952394_2_alg».proof.Proof.KernelNet
import Idealize.ShloMosaic.Lib.StableHlo.Run

set_option maxRecDepth 16384

noncomputable section

namespace Cert.KernelIdeal.Line

open Cert.KernelIdeal Cert.KernelIdeal.Gen Idealize.ShloMosaic Idealize.ShloMosaic.TcCoe Idealize.ShloMosaic.StableHlo
open Idealize.ShloMosaic.ValueIdx Cert.Mlp
open Idealize.ShloMosaic.Pipeline (Dat)

variable (m : (ℓ : Loc nD τ sig) → Buf (Elt Ideal) ℓ) (ρ : Dev nD → PrngReg)

/-! ## Each launch as one operation -/

/-- Launch 0: from the activations, the multiplied-out weights and the one-row bias to the layer's result. -/
abbrev op0 : HloOp τ sig (Elt Ideal) :=
  StableHlo.ternary main_v12 main_v1 main_v13 main_v14
    (fun X W B => (hiddenRow (X : Mat 4096 2048) (W : Mat 6144 2048) (B : Mat 1 6144) : Mat 4096 6144))

/-- Launch 1: from the activations, the multiplied-out weights and the one-row bias to the layer's result. -/
abbrev op1 : HloOp τ sig (Elt Ideal) :=
  StableHlo.ternary main_v14 main_v3 main_v15 main_v16
    (fun X W B => (hiddenRow (X : Mat 4096 6144) (W : Mat 6144 6144) (B : Mat 1 6144) : Mat 4096 6144))

/-- Launch 2: from the activations, the multiplied-out weights and the one-row bias to the layer's result. -/
abbrev op2 : HloOp τ sig (Elt Ideal) :=
  StableHlo.ternary main_v16 main_v5 main_v17 main_v18
    (fun X W B => (hiddenRow (X : Mat 4096 6144) (W : Mat 6144 6144) (B : Mat 1 6144) : Mat 4096 6144))

/-- Launch 3: from the activations, the multiplied-out weights and the one-row bias to the layer's result. -/
abbrev op3 : HloOp τ sig (Elt Ideal) :=
  StableHlo.ternary main_v18 main_v7 main_v19 main_v20
    (fun X W B => (hiddenRow (X : Mat 4096 6144) (W : Mat 6144 6144) (B : Mat 1 6144) : Mat 4096 6144))

/-- Launch 4: from the activations, the multiplied-out weights and the one-row bias to the layer's result. -/
abbrev op4 : HloOp τ sig (Elt Ideal) :=
  StableHlo.ternary main_v20 main_v10 main_v21 main_v22
    (fun X W B => (affineRow (X : Mat 4096 6144) (W : Mat 2048 6144) (B : Mat 1 2048) : Mat 4096 2048))

/-- The contents when launch 0 returns are that operation's result of the contents it was entered with. -/
theorem W6_eq (c : Dev nD) : W6 m ρ c = (op0).result (W5 m ρ c) := by
  unfold W6
  refine Cert.Lib.withArrays_eq_result spec0 launch0.win.arr_inj c (W5 m ρ c) _ op0 3 rfl ?_ ?_
  · exact (Region0.result (V5 m ρ) c).trans
      (StableHlo.ternary_result main_v12 main_v1 main_v13 main_v14 _ _ _ _ _ (W5 m ρ c)).symm
  · intro w hw
    match w, hw with
    | ⟨0, _⟩, _ => exact ((dat0 (V5 m ρ) c).arrAt_in 0 rfl cfg0.N).trans (A_eq0 (V5 m ρ) c 0)
    | ⟨1, _⟩, _ => exact ((dat0 (V5 m ρ) c).arrAt_in 1 rfl cfg0.N).trans (A_eq0 (V5 m ρ) c 1)
    | ⟨2, _⟩, _ => exact ((dat0 (V5 m ρ) c).arrAt_in 2 rfl cfg0.N).trans (A_eq0 (V5 m ρ) c 2)
    | ⟨3, _⟩, hw => exact absurd rfl hw

/-- The contents when launch 1 returns are that operation's result of the contents it was entered with. -/
theorem W8_eq (c : Dev nD) : W8 m ρ c = (op1).result (W7 m ρ c) := by
  unfold W8
  refine Cert.Lib.withArrays_eq_result spec1 launch1.win.arr_inj c (W7 m ρ c) _ op1 3 rfl ?_ ?_
  · exact (Region1.result (V7 m ρ) c).trans
      (StableHlo.ternary_result main_v14 main_v3 main_v15 main_v16 _ _ _ _ _ (W7 m ρ c)).symm
  · intro w hw
    match w, hw with
    | ⟨0, _⟩, _ => exact ((dat1 (V7 m ρ) c).arrAt_in 0 rfl cfg1.N).trans (A_eq1 (V7 m ρ) c 0)
    | ⟨1, _⟩, _ => exact ((dat1 (V7 m ρ) c).arrAt_in 1 rfl cfg1.N).trans (A_eq1 (V7 m ρ) c 1)
    | ⟨2, _⟩, _ => exact ((dat1 (V7 m ρ) c).arrAt_in 2 rfl cfg1.N).trans (A_eq1 (V7 m ρ) c 2)
    | ⟨3, _⟩, hw => exact absurd rfl hw

/-- The contents when launch 2 returns are that operation's result of the contents it was entered with. -/
theorem W10_eq (c : Dev nD) : W10 m ρ c = (op2).result (W9 m ρ c) := by
  unfold W10
  refine Cert.Lib.withArrays_eq_result spec2 launch2.win.arr_inj c (W9 m ρ c) _ op2 3 rfl ?_ ?_
  · exact (Region2.result (V9 m ρ) c).trans
      (StableHlo.ternary_result main_v16 main_v5 main_v17 main_v18 _ _ _ _ _ (W9 m ρ c)).symm
  · intro w hw
    match w, hw with
    | ⟨0, _⟩, _ => exact ((dat2 (V9 m ρ) c).arrAt_in 0 rfl cfg2.N).trans (A_eq2 (V9 m ρ) c 0)
    | ⟨1, _⟩, _ => exact ((dat2 (V9 m ρ) c).arrAt_in 1 rfl cfg2.N).trans (A_eq2 (V9 m ρ) c 1)
    | ⟨2, _⟩, _ => exact ((dat2 (V9 m ρ) c).arrAt_in 2 rfl cfg2.N).trans (A_eq2 (V9 m ρ) c 2)
    | ⟨3, _⟩, hw => exact absurd rfl hw

/-- The contents when launch 3 returns are that operation's result of the contents it was entered with. -/
theorem W12_eq (c : Dev nD) : W12 m ρ c = (op3).result (W11 m ρ c) := by
  unfold W12
  refine Cert.Lib.withArrays_eq_result spec3 launch3.win.arr_inj c (W11 m ρ c) _ op3 3 rfl ?_ ?_
  · exact (Region3.result (V11 m ρ) c).trans
      (StableHlo.ternary_result main_v18 main_v7 main_v19 main_v20 _ _ _ _ _ (W11 m ρ c)).symm
  · intro w hw
    match w, hw with
    | ⟨0, _⟩, _ => exact ((dat3 (V11 m ρ) c).arrAt_in 0 rfl cfg3.N).trans (A_eq3 (V11 m ρ) c 0)
    | ⟨1, _⟩, _ => exact ((dat3 (V11 m ρ) c).arrAt_in 1 rfl cfg3.N).trans (A_eq3 (V11 m ρ) c 1)
    | ⟨2, _⟩, _ => exact ((dat3 (V11 m ρ) c).arrAt_in 2 rfl cfg3.N).trans (A_eq3 (V11 m ρ) c 2)
    | ⟨3, _⟩, hw => exact absurd rfl hw

/-- The contents when launch 4 returns are that operation's result of the contents it was entered with. -/
theorem W14_eq (c : Dev nD) : W14 m ρ c = (op4).result (W13 m ρ c) := by
  unfold W14
  refine Cert.Lib.withArrays_eq_result spec4 launch4.win.arr_inj c (W13 m ρ c) _ op4 3 rfl ?_ ?_
  · exact (Region4.result (V13 m ρ) c).trans
      (StableHlo.ternary_result main_v20 main_v10 main_v21 main_v22 _ _ _ _ _ (W13 m ρ c)).symm
  · intro w hw
    match w, hw with
    | ⟨0, _⟩, _ => exact ((dat4 (V13 m ρ) c).arrAt_in 0 rfl cfg4.N).trans (A_eq4 (V13 m ρ) c 0)
    | ⟨1, _⟩, _ => exact ((dat4 (V13 m ρ) c).arrAt_in 1 rfl cfg4.N).trans (A_eq4 (V13 m ρ) c 1)
    | ⟨2, _⟩, _ => exact ((dat4 (V13 m ρ) c).arrAt_in 2 rfl cfg4.N).trans (A_eq4 (V13 m ρ) c 2)
    | ⟨3, _⟩, hw => exact absurd rfl hw

/-! ## The contents at each boundary as a fold of the one line -/

/-- The contents launch 0 is entered with: the five opening stretches of host operations over the launch contents. -/
abbrev L5 (c : Dev nD) : Valuation τ sig (Elt Ideal) :=
  after hostOps0_4 (after hostOps0_3 (after hostOps0_2 (after hostOps0_1 (after hostOps0 (W0 m ρ c)))))
abbrev L6 (c : Dev nD) : Valuation τ sig (Elt Ideal) := (op0).result (L5 m ρ c)
abbrev L7 (c : Dev nD) : Valuation τ sig (Elt Ideal) := after hostOps1 (L6 m ρ c)
abbrev L8 (c : Dev nD) : Valuation τ sig (Elt Ideal) := (op1).result (L7 m ρ c)
abbrev L9 (c : Dev nD) : Valuation τ sig (Elt Ideal) := after hostOps2 (L8 m ρ c)
abbrev L10 (c : Dev nD) : Valuation τ sig (Elt Ideal) := (op2).result (L9 m ρ c)
abbrev L11 (c : Dev nD) : Valuation τ sig (Elt Ideal) := after hostOps3 (L10 m ρ c)
abbrev L12 (c : Dev nD) : Valuation τ sig (Elt Ideal) := (op3).result (L11 m ρ c)
abbrev L13 (c : Dev nD) : Valuation τ sig (Elt Ideal) := after hostOps4 (L12 m ρ c)
abbrev L14 (c : Dev nD) : Valuation τ sig (Elt Ideal) := (op4).result (L13 m ρ c)
abbrev L15 (c : Dev nD) : Valuation τ sig (Elt Ideal) := after hostOps5 (L14 m ρ c)

theorem W6_L (c : Dev nD) : W6 m ρ c = L6 m ρ c := W6_eq m ρ c
theorem W8_L (c : Dev nD) : W8 m ρ c = L8 m ρ c :=
  (W8_eq m ρ c).trans (congrArg (fun v => (op1).result (after hostOps1 v)) (W6_L m ρ c))
theorem W10_L (c : Dev nD) : W10 m ρ c = L10 m ρ c :=
  (W10_eq m ρ c).trans (congrArg (fun v => (op2).result (after hostOps2 v)) (W8_L m ρ c))
theorem W12_L (c : Dev nD) : W12 m ρ c = L12 m ρ c :=
  (W12_eq m ρ c).trans (congrArg (fun v => (op3).result (after hostOps3 v)) (W10_L m ρ c))
theorem W14_L (c : Dev nD) : W14 m ρ c = L14 m ρ c :=
  (W14_eq m ρ c).trans (congrArg (fun v => (op4).result (after hostOps4 v)) (W12_L m ρ c))
/-- The contents when the program returns. -/
theorem W15_L (c : Dev nD) : W15 m ρ c = L15 m ρ c := congrArg (after hostOps5) (W14_L m ρ c)

/-! ## The returned array -/

set_option maxHeartbeats 2000000 in
/-- The returned array, read off the fold: the network of the sixteen arguments' launch contents. -/
theorem result_eq (c : Dev nD) :
    (W15 m ρ c (Proc.devRef .tc main_v23) : Mat 4096 2016)
      = net (m ((c.tc : Thread nD τ).loc main_arg0))
        (m ((c.tc : Thread nD τ).loc main_arg1))
        (m ((c.tc : Thread nD τ).loc main_arg11))
        (m ((c.tc : Thread nD τ).loc main_arg2))
        (m ((c.tc : Thread nD τ).loc main_arg3))
        (m ((c.tc : Thread nD τ).loc main_arg12))
        (m ((c.tc : Thread nD τ).loc main_arg4))
        (m ((c.tc : Thread nD τ).loc main_arg5))
        (m ((c.tc : Thread nD τ).loc main_arg13))
        (m ((c.tc : Thread nD τ).loc main_arg6))
        (m ((c.tc : Thread nD τ).loc main_arg7))
        (m ((c.tc : Thread nD τ).loc main_arg14))
        (m ((c.tc : Thread nD τ).loc main_arg8))
        (m ((c.tc : Thread nD τ).loc main_arg9))
        (m ((c.tc : Thread nD τ).loc main_arg15))
        (m ((c.tc : Thread nD τ).loc main_arg10)) := by
  rw [W15_L]
  dsimp only [L15, L14, L13, L12, L11, L10, L9, L8, L7, L6, L5]
  after_results_simp
  exact composed_eq_net (m ((c.tc : Thread nD τ).loc main_arg0)) (m ((c.tc : Thread nD τ).loc main_arg1)) (m ((c.tc : Thread nD τ).loc main_arg11)) (m ((c.tc : Thread nD τ).loc main_arg2)) (m ((c.tc : Thread nD τ).loc main_arg3)) (m ((c.tc : Thread nD τ).loc main_arg12)) (m ((c.tc : Thread nD τ).loc main_arg4)) (m ((c.tc : Thread nD τ).loc main_arg5)) (m ((c.tc : Thread nD τ).loc main_arg13)) (m ((c.tc : Thread nD τ).loc main_arg6)) (m ((c.tc : Thread nD τ).loc main_arg7)) (m ((c.tc : Thread nD τ).loc main_arg14)) (m ((c.tc : Thread nD τ).loc main_arg8)) (m ((c.tc : Thread nD τ).loc main_arg9)) (m ((c.tc : Thread nD τ).loc main_arg15)) (m ((c.tc : Thread nD τ).loc main_arg10))
    (u := S_) (sitofp (F := Ideal) .bf16 (constantI S_ 32 0#32)) (sitofp (F := Ideal) .f32 (constantI S_ 32 0#32)) h_S_ bitsLt_bf16_f32
    shapeCasts_S6144_S1x6144 pads_S2016x6144_S2048x6144_0320_000 pads_S2016_S2048_0320 shapeCasts_S2048_S1x2048
    slices_S4096x2048_S4096x2016_0_0

end Cert.KernelIdeal.Line

end
-- ==== Proof.RefValue.lean ====
/-
  The reference program, layer by layer.

  The reference computes each layer as written in the network's definition: the weights times the mask, transposed,
  a matrix product of the previous activations with that, the bias broadcast over the rows and added, and (for the
  four hidden layers) the leaky rectifier as a comparison with zero, a product with the slope and a selection.  Read
  at an entry (r, c) each of these is the previous layer's row r against row c of the masked weights, plus the bias
  at c: the layer of the specification.  The five layers compose to the network.
-/
import proofs.«142621_j62912680952394_2_alg».proof.Proof.Gen.ReferenceIdeal.Run
import proofs.«142621_j62912680952394_2_alg».proof.Proof.Gen.ReferenceIdeal.Read
import proofs.«142621_j62912680952394_2_alg».proof.Proof.Layer

open scoped BigOperators

noncomputable section

namespace Cert.ReferenceIdeal.Layers

open Cert.ReferenceIdeal Cert.ReferenceIdeal.Read Idealize.ShloMosaic Idealize.ShloMosaic.ValueIdx Cert.Mlp

/-- Hidden layer 0 of the reference is the specification's hidden layer of the input. -/
theorem layer0 (x0 : (⟨S4096x2048, .f32⟩ : BufTy).Contents (Elt Ideal)) (x1 : (⟨S6144x2048, .f32⟩ : BufTy).Contents (Elt Ideal)) (x2 : (⟨S6144, .f32⟩ : BufTy).Contents (Elt Ideal)) (x11 : (⟨S6144x2048, .f32⟩ : BufTy).Contents (Elt Ideal)) :
    val_main_v10 (F := Ideal) x0 x1 x2 x11 = hidden x0 x1 x11 x2 := by
  funext i
  obtain ⟨r, c, rfl⟩ : ∃ (r : Fin 4096) (c : Fin 6144), i = ix2 r c := ⟨i 0, i 1, eq_ix2 i⟩
  rw [hidden_apply, val_main_v10_apply, val_main_v7_apply, val_main_v9_apply, val_main_v5_apply, val_main_v2_apply,
    val_main_v4_apply, val_main_v3_apply, val_main_v6_apply, val_main_v8_apply, val_main_cst_apply, val_main_cst_0_apply]
  have e1 : ∀ k : Fin 2048, lidx_main_v2 (ix2 r c) k = ix2 r k := fun k => funext fun a => Fin.ext (by match a with | ⟨0, _⟩ => rfl | ⟨1, _⟩ => rfl)
  have e2 : ∀ k : Fin 2048, idx_main_v1 (ridx_main_v2 (ix2 r c) k) = ix2 c k := fun k => funext fun a => Fin.ext (by match a with | ⟨0, _⟩ => rfl | ⟨1, _⟩ => rfl)
  have e3 : idx_main_v3 (idx_main_v4 (ix2 r c)) = ix1 c := funext fun a => Fin.ext (by match a with | ⟨0, _⟩ => rfl)
  simp only [val_main_v1_apply, val_main_v0_apply, e1, e2, e3]
  rfl

/-- Hidden layer 1 of the reference is the specification's hidden layer of the layer before. -/
theorem layer1 (x0 : (⟨S4096x2048, .f32⟩ : BufTy).Contents (Elt Ideal)) (x1 : (⟨S6144x2048, .f32⟩ : BufTy).Contents (Elt Ideal)) (x2 : (⟨S6144, .f32⟩ : BufTy).Contents (Elt Ideal)) (x3 : (⟨S6144x6144, .f32⟩ : BufTy).Contents (Elt Ideal)) (x4 : (⟨S6144, .f32⟩ : BufTy).Contents (Elt Ideal)) (x11 : (⟨S6144x2048, .f32⟩ : BufTy).Contents (Elt Ideal)) (x12 : (⟨S6144x6144, .f32⟩ : BufTy).Contents (Elt Ideal)) :
    val_main_v21 (F := Ideal) x0 x1 x2 x3 x4 x11 x12 = hidden (val_main_v10 (F := Ideal) x0 x1 x2 x11) x3 x12 x4 := by
  funext i
  obtain ⟨r, c, rfl⟩ : ∃ (r : Fin 4096) (c : Fin 6144), i = ix2 r c := ⟨i 0, i 1, eq_ix2 i⟩
  rw [hidden_apply, val_main_v21_apply, val_main_v18_apply, val_main_v20_apply, val_main_v16_apply, val_main_v13_apply,
    val_main_v15_apply, val_main_v14_apply, val_main_v17_apply, val_main_v19_apply, val_main_cst_1_apply, val_main_cst_2_apply]
  have e1 : ∀ k : Fin 6144, lidx_main_v13 (ix2 r c) k = ix2 r k := fun k => funext fun a => Fin.ext (by match a with | ⟨0, _⟩ => rfl | ⟨1, _⟩ => rfl)
  have e2 : ∀ k : Fin 6144, idx_main_v12 (ridx_main_v13 (ix2 r c) k) = ix2 c k := fun k => funext fun a => Fin.ext (by match a with | ⟨0, _⟩ => rfl | ⟨1, _⟩ => rfl)
  have e3 : idx_main_v14 (idx_main_v15 (ix2 r c)) = ix1 c := funext fun a => Fin.ext (by match a with | ⟨0, _⟩ => rfl)
  simp only [val_main_v12_apply, val_main_v11_apply, e1, e2, e3]
  rfl

/-- Hidden layer 2 of the reference is the specification's hidden layer of the layer before. -/
theorem layer2 (x0 : (⟨S4096x2048, .f32⟩ : BufTy).Contents (Elt Ideal)) (x1 : (⟨S6144x2048, .f32⟩ : BufTy).Contents (Elt Ideal)) (x2 : (⟨S6144, .f32⟩ : BufTy).Contents (Elt Ideal)) (x3 : (⟨S6144x6144, .f32⟩ : BufTy).Contents (Elt Ideal)) (x4 : (⟨S6144, .f32⟩ : BufTy).Contents (Elt Ideal)) (x5 : (⟨S6144x6144, .f32⟩ : BufTy).Contents (Elt Ideal)) (x6 : (⟨S6144, .f32⟩ : BufTy).Contents (Elt Ideal)) (x11 : (⟨S6144x2048, .f32⟩ : BufTy).Contents (Elt Ideal)) (x12 : (⟨S6144x6144, .f32⟩ : BufTy).Contents (Elt Ideal)) (x13 : (⟨S6144x6144, .f32⟩ : BufTy).Contents (Elt Ideal)) :
    val_main_v32 (F := Ideal) x0 x1 x2 x3 x4 x5 x6 x11 x12 x13 = hidden (val_main_v21 (F := Ideal) x0 x1 x2 x3 x4 x11 x12) x5 x13 x6 := by
  funext i
  obtain ⟨r, c, rfl⟩ : ∃ (r : Fin 4096) (c : Fin 6144), i = ix2 r c := ⟨i 0, i 1, eq_ix2 i⟩
  rw [hidden_apply, val_main_v32_apply, val_main_v29_apply, val_main_v31_apply, val_main_v27_apply, val_main_v24_apply,
    val_main_v26_apply, val_main_v25_apply, val_main_v28_apply, val_main_v30_apply, val_main_cst_3_apply, val_main_cst_4_apply]
  have e1 : ∀ k : Fin 6144, lidx_main_v24 (ix2 r c) k = ix2 r k := fun k => funext fun a => Fin.ext (by match a with | ⟨0, _⟩ => rfl | ⟨1, _⟩ => rfl)
  have e2 : ∀ k : Fin 6144, idx_main_v23 (ridx_main_v24 (ix2 r c) k) = ix2 c k := fun k => funext fun a => Fin.ext (by match a with | ⟨0, _⟩ => rfl | ⟨1, _⟩ => rfl)
  have e3 : idx_main_v25 (idx_main_v26 (ix2 r c)) = ix1 c := funext fun a => Fin.ext (by match a with | ⟨0, _⟩ => rfl)
  simp only [val_main_v23_apply, val_main_v22_apply, e1, e2, e3]
  rfl

/-- Hidden layer 3 of the reference is the specification's hidden layer of the layer before. -/
theorem layer3 (x0 : (⟨S4096x2048, .f32⟩ : BufTy).Contents (Elt Ideal)) (x1 : (⟨S6144x2048, .f32⟩ : BufTy).Contents (Elt Ideal)) (x2 : (⟨S6144, .f32⟩ : BufTy).Contents (Elt Ideal)) (x3 : (⟨S6144x6144, .f32⟩ : BufTy).Contents (Elt Ideal)) (x4 : (⟨S6144, .f32⟩ : BufTy).Contents (Elt Ideal)) (x5 : (⟨S6144x6144, .f32⟩ : BufTy).Contents (Elt Ideal)) (x6 : (⟨S6144, .f32⟩ : BufTy).Contents (Elt Ideal)) (x7 : (⟨S6144x6144, .f32⟩ : BufTy).Contents (Elt Ideal)) (x8 : (⟨S6144, .f32⟩ : BufTy).Contents (Elt Ideal)) (x11 : (⟨S6144x2048, .f32⟩ : BufTy).Contents (Elt Ideal)) (x12 : (⟨S6144x6144, .f32⟩ : BufTy).Contents (Elt Ideal)) (x13 : (⟨S6144x6144, .f32⟩ : BufTy).Contents (Elt Ideal)) (x14 : (⟨S6144x6144, .f32⟩ : BufTy).Contents (Elt Ideal)) :
    val_main_v43 (F := Ideal) x0 x1 x2 x3 x4 x5 x6 x7 x8 x11 x12 x13 x14 = hidden (val_main_v32 (F := Ideal) x0 x1 x2 x3 x4 x5 x6 x11 x12 x13) x7 x14 x8 := by
  funext i
  obtain ⟨r, c, rfl⟩ : ∃ (r : Fin 4096) (c : Fin 6144), i = ix2 r c := ⟨i 0, i 1, eq_ix2 i⟩
  rw [hidden_apply, val_main_v43_apply, val_main_v40_apply, val_main_v42_apply, val_main_v38_apply, val_main_v35_apply,
    val_main_v37_apply, val_main_v36_apply, val_main_v39_apply, val_main_v41_apply, val_main_cst_5_apply, val_main_cst_6_apply]
  have e1 : ∀ k : Fin 6144, lidx_main_v35 (ix2 r c) k = ix2 r k := fun k => funext fun a => Fin.ext (by match a with | ⟨0, _⟩ => rfl | ⟨1, _⟩ => rfl)
  have e2 : ∀ k : Fin 6144, idx_main_v34 (ridx_main_v35 (ix2 r c) k) = ix2 c k := fun k => funext fun a => Fin.ext (by match a with | ⟨0, _⟩ => rfl | ⟨1, _⟩ => rfl)
  have e3 : idx_main_v36 (idx_main_v37 (ix2 r c)) = ix1 c := funext fun a => Fin.ext (by match a with | ⟨0, _⟩ => rfl)
  simp only [val_main_v34_apply, val_main_v33_apply, e1, e2, e3]
  rfl

/-- The last layer of the reference is the specification's layer without the rectifier. -/
theorem layer4 (x0 : (⟨S4096x2048, .f32⟩ : BufTy).Contents (Elt Ideal)) (x1 : (⟨S6144x2048, .f32⟩ : BufTy).Contents (Elt Ideal)) (x2 : (⟨S6144, .f32⟩ : BufTy).Contents (Elt Ideal)) (x3 : (⟨S6144x6144, .f32⟩ : BufTy).Contents (Elt Ideal)) (x4 : (⟨S6144, .f32⟩ : BufTy).Contents (Elt Ideal)) (x5 : (⟨S6144x6144, .f32⟩ : BufTy).Contents (Elt Ideal)) (x6 : (⟨S6144, .f32⟩ : BufTy).Contents (Elt Ideal)) (x7 : (⟨S6144x6144, .f32⟩ : BufTy).Contents (Elt Ideal)) (x8 : (⟨S6144, .f32⟩ : BufTy).Contents (Elt Ideal)) (x9 : (⟨S2016x6144, .f32⟩ : BufTy).Contents (Elt Ideal)) (x10 : (⟨S2016, .f32⟩ : BufTy).Contents (Elt Ideal)) (x11 : (⟨S6144x2048, .f32⟩ : BufTy).Contents (Elt Ideal)) (x12 : (⟨S6144x6144, .f32⟩ : BufTy).Contents (Elt Ideal)) (x13 : (⟨S6144x6144, .f32⟩ : BufTy).Contents (Elt Ideal)) (x14 : (⟨S6144x6144, .f32⟩ : BufTy).Contents (Elt Ideal)) (x15 : (⟨S2016x6144, .f32⟩ : BufTy).Contents (Elt Ideal)) :
    val_main_v49 (F := Ideal) x0 x1 x2 x3 x4 x5 x6 x7 x8 x9 x10 x11 x12 x13 x14 x15 = affine (val_main_v43 (F := Ideal) x0 x1 x2 x3 x4 x5 x6 x7 x8 x11 x12 x13 x14) x9 x15 x10 := by
  funext i
  obtain ⟨r, c, rfl⟩ : ∃ (r : Fin 4096) (c : Fin 2016), i = ix2 r c := ⟨i 0, i 1, eq_ix2 i⟩
  rw [affine_apply, val_main_v49_apply, val_main_v46_apply, val_main_v48_apply, val_main_v47_apply]
  have e1 : ∀ k : Fin 6144, lidx_main_v46 (ix2 r c) k = ix2 r k := fun k => funext fun a => Fin.ext (by match a with | ⟨0, _⟩ => rfl | ⟨1, _⟩ => rfl)
  have e2 : ∀ k : Fin 6144, idx_main_v45 (ridx_main_v46 (ix2 r c) k) = ix2 c k := fun k => funext fun a => Fin.ext (by match a with | ⟨0, _⟩ => rfl | ⟨1, _⟩ => rfl)
  have e3 : idx_main_v47 (idx_main_v48 (ix2 r c)) = ix1 c := funext fun a => Fin.ext (by match a with | ⟨0, _⟩ => rfl)
  simp only [val_main_v45_apply, val_main_v44_apply, e1, e2, e3]
  rfl

/-- The reference's result is the network of its sixteen arguments. -/
theorem result_eq_net (x0 : (⟨S4096x2048, .f32⟩ : BufTy).Contents (Elt Ideal)) (x1 : (⟨S6144x2048, .f32⟩ : BufTy).Contents (Elt Ideal)) (x2 : (⟨S6144, .f32⟩ : BufTy).Contents (Elt Ideal)) (x3 : (⟨S6144x6144, .f32⟩ : BufTy).Contents (Elt Ideal)) (x4 : (⟨S6144, .f32⟩ : BufTy).Contents (Elt Ideal)) (x5 : (⟨S6144x6144, .f32⟩ : BufTy).Contents (Elt Ideal)) (x6 : (⟨S6144, .f32⟩ : BufTy).Contents (Elt Ideal)) (x7 : (⟨S6144x6144, .f32⟩ : BufTy).Contents (Elt Ideal)) (x8 : (⟨S6144, .f32⟩ : BufTy).Contents (Elt Ideal)) (x9 : (⟨S2016x6144, .f32⟩ : BufTy).Contents (Elt Ideal)) (x10 : (⟨S2016, .f32⟩ : BufTy).Contents (Elt Ideal)) (x11 : (⟨S6144x2048, .f32⟩ : BufTy).Contents (Elt Ideal)) (x12 : (⟨S6144x6144, .f32⟩ : BufTy).Contents (Elt Ideal)) (x13 : (⟨S6144x6144, .f32⟩ : BufTy).Contents (Elt Ideal)) (x14 : (⟨S6144x6144, .f32⟩ : BufTy).Contents (Elt Ideal)) (x15 : (⟨S2016x6144, .f32⟩ : BufTy).Contents (Elt Ideal)) :
    val_main_v49 (F := Ideal) x0 x1 x2 x3 x4 x5 x6 x7 x8 x9 x10 x11 x12 x13 x14 x15 = net x0 x1 x11 x2 x3 x12 x4 x5 x13 x6 x7 x14 x8 x9 x15 x10 := by
  rw [layer4, layer3, layer2, layer1, layer0]
  rfl

end Cert.ReferenceIdeal.Layers

end
-- ==== Proof.lean ====
/-
  A five-layer masked dense network, tiled, against its definition.

  Both programs compute, from a batch x of 4096 rows and five weight matrices with their 0/1 masks and biases,

      h₁ = leaky (x · (W₀ ∘ M₀)ᵀ + b₀),  h₂ = leaky (h₁ · (W₁ ∘ M₁)ᵀ + b₁),  …,  out = h₄ · (Wₒ ∘ Mₒ)ᵀ + bₒ

  (leaky v = v where v ≥ 0, slope · v elsewhere; the slope is one float word that both programs spell).  The reference
  writes this down directly.  The tiled program multiplies the masks in once, launches one tiled kernel per layer
  (each grid point computes a 256 × 1024 tile of a layer from 256 activation rows and 1024 weight rows, the whole
  contraction at once, into a zero accumulator), pads the last layer from 2016 to 2048 output features so that it
  tiles, and cuts the padding columns off the result.  Over the extended reals a change of float format is the
  identity, the kernel's product contracting the last axis of both operands and the reference's product with the
  transposed weights are the same sum over the input features, a tile of a layer is the layer read at the tile's
  place, and the padding rows feed only the columns that are cut away: the two results are one function of the
  sixteen arguments, entry by entry, with no appeal to finiteness.

  The modules: Layer (the layers and the network), RefValue (the reference is the network), Region0 … Region4 (each
  launch leaves its result array at the layer of its operand arrays), KernelRun (the program's run, the returned array
  named), KernelLine (each launch as one operation, the returned array read off one line of operations), KernelNet
  (that line's composed operations are the network).
-/
import proofs.«142621_j62912680952394_2_alg».proof.Defs
import proofs.«142621_j62912680952394_2_alg».proof.Proof.Gen.Kernel
import proofs.«142621_j62912680952394_2_alg».proof.Proof.Gen.Kernel.Skeleton
import proofs.«142621_j62912680952394_2_alg».proof.Proof.Gen.Kernel.Launch
import proofs.«142621_j62912680952394_2_alg».proof.Proof.Gen.Kernel.Points
import proofs.«142621_j62912680952394_2_alg».proof.Proof.Gen.Kernel.Frame
import proofs.«142621_j62912680952394_2_alg».proof.Proof.Gen.KernelIdeal
import proofs.«142621_j62912680952394_2_alg».proof.Proof.Gen.KernelIdeal.Skeleton
import proofs.«142621_j62912680952394_2_alg».proof.Proof.Gen.KernelIdeal.Launch
import proofs.«142621_j62912680952394_2_alg».proof.Proof.Gen.KernelIdeal.Points
import proofs.«142621_j62912680952394_2_alg».proof.Proof.Gen.KernelIdeal.Frame
import proofs.«142621_j62912680952394_2_alg».proof.Proof.Gen.ReferenceIdeal
import proofs.«142621_j62912680952394_2_alg».proof.Proof.Gen.ReferenceIdeal.Run
import proofs.«142621_j62912680952394_2_alg».proof.Proof.Gen.ReferenceIdeal.Read
import proofs.«142621_j62912680952394_2_alg».proof.Proof.Gen.Pre_finite_inputs
import proofs.«142621_j62912680952394_2_alg».proof.Proof.KernelRun
import proofs.«142621_j62912680952394_2_alg».proof.Proof.KernelLine
import proofs.«142621_j62912680952394_2_alg».proof.Proof.RefValue
import Idealize.ShloMosaic.Adequacy
import Idealize.ShloMosaic.Init

noncomputable section

namespace Cert.Proof

open Idealize.ShloMosaic Idealize.ShloMosaic.TcCoe Idealize.SL.Sem

/-- The tiled program at the word level runs, and leaves its arguments as launched. -/
theorem frame_kernel : Cert.frame_Kernel := fun m ρ _ => Cert.Kernel.Gen.frame m ρ

/-- The same program read over the extended reals runs, and leaves its arguments as launched. -/
theorem frame_kernelIdeal : Cert.frame_KernelIdeal := fun m ρ _ => Cert.KernelIdeal.Gen.frame m ρ

/-- The reference runs, and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the tiled program over the extended reals rewrote none of its operations. -/
theorem preserves : Cert.preserves_Kernel_KernelIdeal := trivial

/-- From memories that agree on the sixteen arguments both programs end with the network of those arguments in their
    result arrays: the tiled program's returned array read off its line of operations, the reference's off its own. -/
theorem algebraic : Cert.algebraic_KernelIdeal_ReferenceIdeal := by
  intro m ρ m' ρ' _ hagree
  refine ⟨fun c => Cert.KernelIdeal.Gen.W15 m ρ c (Proc.devRef .tc Cert.KernelIdeal.main_v23),
    Cert.KernelIdeal.Value.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15⟩ := hagree c
  rw [Cert.ReferenceIdeal.Read.val_main_v49_eq, Cert.ReferenceIdeal.Layers.result_eq_net,
    a0, a1, a2, a3, a4, a5, a6, a7, a8, a9, a10, a11, a12, a13, a14, a15]
  exact (Cert.KernelIdeal.Line.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
